-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x21 : Shape := ⟨2, ![3, 21]⟩
abbrev S262144x2x21 : Shape := ⟨3, ![262144, 2, 21]⟩
abbrev S262144x3x3 : Shape := ⟨3, ![262144, 3, 3]⟩
abbrev S262144x3x1 : Shape := ⟨3, ![262144, 3, 1]⟩
abbrev S3x3 : Shape := ⟨2, ![3, 3]⟩
abbrev S_ : Shape := ⟨0, ![]⟩

class Facts : Prop where
  bcast_S_S3x21 : S_.BroadcastsInDim S3x21 (![] : Fin 0 → Fin S3x21.rank)
  reducesTo_S3x21_S_d0_1 : S3x21.ReducesTo [0, 1] S_
  h_S_ : 0 < S_.numel
  bcast_S_S262144x2x21 : S_.BroadcastsInDim S262144x2x21 (![] : Fin 0 → Fin S262144x2x21.rank)
  reducesTo_S262144x2x21_S_d0_1_2 : S262144x2x21.ReducesTo [0, 1, 2] S_
  bcast_S_S262144x3x3 : S_.BroadcastsInDim S262144x3x3 (![] : Fin 0 → Fin S262144x3x3.rank)
  reducesTo_S262144x3x3_S_d0_1_2 : S262144x3x3.ReducesTo [0, 1, 2] S_
  bcast_S_S262144x3x1 : S_.BroadcastsInDim S262144x3x1 (![] : Fin 0 → Fin S262144x3x1.rank)
  reducesTo_S262144x3x1_S_d0_1_2 : S262144x3x1.ReducesTo [0, 1, 2] S_
  bcast_S_S3x3 : S_.BroadcastsInDim S3x3 (![] : Fin 0 → Fin S3x3.rank)
  reducesTo_S3x3_S_d0_1 : S3x3.ReducesTo [0, 1] S_

variable [Facts]

def fn_part1 {F : FTy → Type} [FloatOps F] (main_arg4 : FVec F S3x3 .f32) (main_v13 : IVec S_ 1) (main_v16 : IVec S262144x3x1 1) : IVec S_ 1 :=
  let main_c_5 : IVec S_ 1 := constantI S_ 1 1#1
  let main_v17 : IVec S_ 1 := (fun x v => Host.reduce IntOp.andi x v reducesTo_S262144x3x1_S_d0_1_2 h_S_) main_v16 main_c_5
  let main_v18 : IVec S_ 1 := andi main_v13 main_v17
  let main_v19 : FVec F S3x3 .f32 := Host.absf main_arg4
  let main_cst_6 : FVec F S_ .f32 := constant S_ .f32 0x7F800000#32
  let main_v20 : FVec F S3x3 .f32 := broadcastInDim S3x3 ![] bcast_S_S3x3 main_cst_6
  let main_v21 : IVec S3x3 1 := cmpf .olt main_v19 main_v20
  let main_c_7 : IVec S_ 1 := constantI S_ 1 1#1
  let main_v22 : IVec S_ 1 := (fun x v => Host.reduce IntOp.andi x v reducesTo_S3x3_S_d0_1 h_S_) main_v21 main_c_7
  let main_v23 : IVec S_ 1 := andi main_v18 main_v22
  main_v23

def fn {F : FTy → Type} [FloatOps F] (main_arg0 : FVec F S3x21 .f32) (main_arg1 : FVec F S262144x2x21 .f32) (main_arg2 : FVec F S262144x3x3 .f32) (main_arg3 : FVec F S262144x3x1 .f32) (main_arg4 : FVec F S3x3 .f32) : IVec S_ 1 :=
  let main_v0 : FVec F S3x21 .f32 := Host.absf main_arg0
  let main_cst : FVec F S_ .f32 := constant S_ .f32 0x7F800000#32
  let main_v1 : FVec F S3x21 .f32 := broadcastInDim S3x21 ![] bcast_S_S3x21 main_cst
  let main_v2 : IVec S3x21 1 := cmpf .olt main_v0 main_v1
  let main_c : IVec S_ 1 := constantI S_ 1 1#1
  let main_v3 : IVec S_ 1 := (fun x v => Host.reduce IntOp.andi x v reducesTo_S3x21_S_d0_1 h_S_) main_v2 main_c
  let main_v4 : FVec F S262144x2x21 .f32 := Host.absf main_arg1
  let main_cst_0 : FVec F S_ .f32 := constant S_ .f32 0x7F800000#32
  let main_v5 : FVec F S262144x2x21 .f32 := broadcastInDim S262144x2x21 ![] bcast_S_S262144x2x21 main_cst_0
  let main_v6 : IVec S262144x2x21 1 := cmpf .olt main_v4 main_v5
  let main_c_1 : IVec S_ 1 := constantI S_ 1 1#1
  let main_v7 : IVec S_ 1 := (fun x v => Host.reduce IntOp.andi x v reducesTo_S262144x2x21_S_d0_1_2 h_S_) main_v6 main_c_1
  let main_v8 : IVec S_ 1 := andi main_v3 main_v7
  let main_v9 : FVec F S262144x3x3 .f32 := Host.absf main_arg2
  let main_cst_2 : FVec F S_ .f32 := constant S_ .f32 0x7F800000#32
  let main_v10 : FVec F S262144x3x3 .f32 := broadcastInDim S262144x3x3 ![] bcast_S_S262144x3x3 main_cst_2
  let main_v11 : IVec S262144x3x3 1 := cmpf .olt main_v9 main_v10
  let main_c_3 : IVec S_ 1 := constantI S_ 1 1#1
  let main_v12 : IVec S_ 1 := (fun x v => Host.reduce IntOp.andi x v reducesTo_S262144x3x3_S_d0_1_2 h_S_) main_v11 main_c_3
  let main_v13 : IVec S_ 1 := andi main_v8 main_v12
  let main_v14 : FVec F S262144x3x1 .f32 := Host.absf main_arg3
  let main_cst_4 : FVec F S_ .f32 := constant S_ .f32 0x7F800000#32
  let main_v15 : FVec F S262144x3x1 .f32 := broadcastInDim S262144x3x1 ![] bcast_S_S262144x3x1 main_cst_4
  let main_v16 : IVec S262144x3x1 1 := cmpf .olt main_v14 main_v15
  fn_part1 (F := F) main_arg4 main_v13 main_v16
-- ==== Kernel.lean ====
abbrev S3x21 : Shape := ⟨2, ![3, 21]⟩
abbrev S262144x2x21 : Shape := ⟨3, ![262144, 2, 21]⟩
abbrev S262144x3x3 : Shape := ⟨3, ![262144, 3, 3]⟩
abbrev S262144x3x1 : Shape := ⟨3, ![262144, 3, 1]⟩
abbrev S3x3 : Shape := ⟨2, ![3, 3]⟩
abbrev S6 : Shape := ⟨1, ![6]⟩
abbrev S_ : Shape := ⟨0, ![]⟩
abbrev S6x1 : Shape := ⟨2, ![6, 1]⟩
abbrev S3x6 : Shape := ⟨2, ![3, 6]⟩
abbrev S262144x9 : Shape := ⟨2, ![262144, 9]⟩
abbrev S262144x3 : Shape := ⟨2, ![262144, 3]⟩
abbrev S262144x42 : Shape := ⟨2, ![262144, 42]⟩
abbrev S1x1 : Shape := ⟨2, ![1, 1]⟩
abbrev S2048x9 : Shape := ⟨2, ![2048, 9]⟩
abbrev S2048x3 : Shape := ⟨2, ![2048, 3]⟩
abbrev S2048x42 : Shape := ⟨2, ![2048, 42]⟩
abbrev S1x21 : Shape := ⟨2, ![1, 21]⟩
abbrev S2048x1 : Shape := ⟨2, ![2048, 1]⟩
abbrev S2048x21 : Shape := ⟨2, ![2048, 21]⟩
abbrev S2048 : Shape := ⟨1, ![2048]⟩
abbrev S1 : Shape := ⟨1, ![1]⟩

abbrev nBuf : Space → Nat
  | .hbm => 64
  | .vmem => 9
  | .smem => 0
  | _ => 0

abbrev bufTy : (tb : Table) → Fin (tcTables nBuf tb) → BufTy
  | .hbm, ⟨0, _⟩ => ⟨S3x21, .f32⟩
  | .hbm, ⟨1, _⟩ => ⟨S262144x2x21, .f32⟩
  | .hbm, ⟨2, _⟩ => ⟨S262144x3x3, .f32⟩
  | .hbm, ⟨3, _⟩ => ⟨S262144x3x1, .f32⟩
  | .hbm, ⟨4, _⟩ => ⟨S3x3, .f32⟩
  | .hbm, ⟨5, _⟩ => ⟨S6, .i32⟩
  | .hbm, ⟨6, _⟩ => ⟨S6, .i1⟩
  | .hbm, ⟨7, _⟩ => ⟨S6, .i32⟩
  | .hbm, ⟨8, _⟩ => ⟨S6, .i1⟩
  | .hbm, ⟨9, _⟩ => ⟨S6, .i32⟩
  | .hbm, ⟨10, _⟩ => ⟨S6, .i1⟩
  | .hbm, ⟨11, _⟩ => ⟨S6, .i32⟩
  | .hbm, ⟨12, _⟩ => ⟨S6, .i1⟩
  | .hbm, ⟨13, _⟩ => ⟨S_, .i32⟩
  | .hbm, ⟨14, _⟩ => ⟨S6, .i32⟩
  | .hbm, ⟨15, _⟩ => ⟨S6, .i32⟩
  | .hbm, ⟨16, _⟩ => ⟨S6, .i32⟩
  | .hbm, ⟨17, _⟩ => ⟨S6x1, .i32⟩
  | .hbm, ⟨18, _⟩ => ⟨S3x6, .f32⟩
  | .hbm, ⟨19, _⟩ => ⟨S_, .i32⟩
  | .hbm, ⟨20, _⟩ => ⟨S6, .i32⟩
  | .hbm, ⟨21, _⟩ => ⟨S6, .i32⟩
  | .hbm, ⟨22, _⟩ => ⟨S6, .i32⟩
  | .hbm, ⟨23, _⟩ => ⟨S6x1, .i32⟩
  | .hbm, ⟨24, _⟩ => ⟨S3x6, .f32⟩
  | .hbm, ⟨25, _⟩ => ⟨S3x6, .f32⟩
  | .hbm, ⟨26, _⟩ => ⟨S_, .i32⟩
  | .hbm, ⟨27, _⟩ => ⟨S6, .i32⟩
  | .hbm, ⟨28, _⟩ => ⟨S6, .i32⟩
  | .hbm, ⟨29, _⟩ => ⟨S6, .i32⟩
  | .hbm, ⟨30, _⟩ => ⟨S6x1, .i32⟩
  | .hbm, ⟨31, _⟩ => ⟨S3x6, .f32⟩
  | .hbm, ⟨32, _⟩ => ⟨S_, .i32⟩
  | .hbm, ⟨33, _⟩ => ⟨S6, .i32⟩
  | .hbm, ⟨34, _⟩ => ⟨S6, .i32⟩
  | .hbm, ⟨35, _⟩ => ⟨S6, .i32⟩
  | .hbm, ⟨36, _⟩ => ⟨S6x1, .i32⟩
  | .hbm, ⟨37, _⟩ => ⟨S3x6, .f32⟩
  | .hbm, ⟨38, _⟩ => ⟨S3x6, .f32⟩
  | .hbm, ⟨39, _⟩ => ⟨S3x6, .f32⟩
  | .hbm, ⟨40, _⟩ => ⟨S_, .f32⟩
  | .hbm, ⟨41, _⟩ => ⟨S6, .f32⟩
  | .hbm, ⟨42, _⟩ => ⟨S3x6, .f32⟩
  | .hbm, ⟨43, _⟩ => ⟨S_, .f32⟩
  | .hbm, ⟨44, _⟩ => ⟨S6, .f32⟩
  | .hbm, ⟨45, _⟩ => ⟨S6, .f32⟩
  | .hbm, ⟨46, _⟩ => ⟨S6, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S262144x9, .f32⟩
  | .hbm, ⟨52, _⟩ => ⟨S262144x3, .f32⟩
  | .hbm, ⟨53, _⟩ => ⟨S262144x42, .f32⟩
  | .hbm, ⟨54, _⟩ => ⟨S1x1, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S1, .f32⟩
  | .local _ .vmem, ⟨0, _⟩ => ⟨S2048x9, .f32⟩
  | .local _ .vmem, ⟨1, _⟩ => ⟨S2048x9, .f32⟩
  | .local _ .vmem, ⟨2, _⟩ => ⟨S2048x3, .f32⟩
  | .local _ .vmem, ⟨3, _⟩ => ⟨S2048x3, .f32⟩
  | .local _ .vmem, ⟨4, _⟩ => ⟨S2048x42, .f32⟩
  | .local _ .vmem, ⟨5, _⟩ => ⟨S2048x42, .f32⟩
  | .local _ .vmem, ⟨6, _⟩ => ⟨S3x21, .f32⟩
  | .local _ .vmem, ⟨7, _⟩ => ⟨S3x3, .f32⟩
  | .local _ .vmem, ⟨8, _⟩ => ⟨S1x1, .f32⟩
  | _, _ => ⟨S3x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_c_4 : Ref sig .tc := ⟨.hbm, 10, rfl⟩
abbrev main_c_5 : Ref sig .tc := ⟨.hbm, 11, rfl⟩
abbrev main_c_6 : Ref sig .tc := ⟨.hbm, 12, rfl⟩
abbrev main_c_7 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_8 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_9 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_10 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst : Ref sig .tc := ⟨.hbm, 40, rfl⟩
abbrev main_v23 : Ref sig .tc := ⟨.hbm, 41, rfl⟩
abbrev main_v24 : Ref sig .tc := ⟨.hbm, 42, rfl⟩
abbrev main_cst_11 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_12 : Ref sig .tc := ⟨.hbm, 47, rfl⟩
abbrev main_v28 : Ref sig .tc := ⟨.hbm, 48, rfl⟩
abbrev main_cst_13 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_14 : Ref sig .tc := ⟨.hbm, 56, rfl⟩
abbrev main_v35 : Ref sig .tc := ⟨.hbm, 57, rfl⟩
abbrev main_cst_15 : Ref sig .tc := ⟨.hbm, 58, rfl⟩
abbrev main_v36 : Ref sig .tc := ⟨.hbm, 59, rfl⟩
abbrev main_cst_16 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x42 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x21 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  bcast_S_S6 : S_.BroadcastsInDim S6 (![] : Fin 0 → Fin S6.rank)
  bcast_S6_S6x1_0 : S6.BroadcastsInDim S6x1 (![0] : Fin 1 → Fin S6x1.rank)
  reducesTo_S3x6_S6_d0 : S3x6.ReducesTo [0] S6
  h_S_ : 0 < S_.numel
  reducesTo_S6_S_d0 : S6.ReducesTo [0] S_
  shapeCasts_S262144x3x3_S262144x9 : S262144x3x3.ShapeCasts S262144x9
  shapeCasts_S262144x3x1_S262144x3 : S262144x3x1.ShapeCasts S262144x3
  shapeCasts_S262144x2x21_S262144x42 : S262144x2x21.ShapeCasts S262144x42
  inb_S1x1_S1x1_0_0 : ∀ a, (![0, 0] : Fin 2 → Nat) a + S1x1.size a ≤ S1x1.size a
  h_S1x1 : 0 < S1x1.numel
  inb_S2048x9_S2048x9_0_0 : ∀ a, (![0, 0] : Fin 2 → Nat) a + S2048x9.size a ≤ S2048x9.size a
  h_S2048x9 : 0 < S2048x9.numel
  shapeCasts_S2048x9_S2048x9 : S2048x9.ShapeCasts S2048x9
  inb_S2048x3_S2048x3_0_0 : ∀ a, (![0, 0] : Fin 2 → Nat) a + S2048x3.size a ≤ S2048x3.size a
  h_S2048x3 : 0 < S2048x3.numel
  shapeCasts_S2048x3_S2048x3 : S2048x3.ShapeCasts S2048x3
  inb_S2048x42_S2048x42_0_0 : ∀ a, (![0, 0] : Fin 2 → Nat) a + S2048x42.size a ≤ S2048x42.size a
  h_S2048x42 : 0 < S2048x42.numel
  shapeCasts_S2048x42_S2048x42 : S2048x42.ShapeCasts S2048x42
  inb_S3x21_S3x21_0_0 : ∀ a, (![0, 0] : Fin 2 → Nat) a + S3x21.size a ≤ S3x21.size a
  h_S3x21 : 0 < S3x21.numel
  inb_S3x3_S3x3_0_0 : ∀ a, (![0, 0] : Fin 2 → Nat) a + S3x3.size a ≤ S3x3.size a
  h_S3x3 : 0 < S3x3.numel
  slices_S3x21_o0_0_S1x21 : S3x21.Slices ![0, 0] S1x21
  slices_S2048x3_o0_0_S2048x1 : S2048x3.Slices ![0, 0] S2048x1
  broadcasts_S1x21_S2048x21 : S1x21.Broadcasts S2048x21
  broadcasts_S2048x1_S2048x21 : S2048x1.Broadcasts S2048x21
  slices_S3x21_o1_0_S1x21 : S3x21.Slices ![1, 0] S1x21
  slices_S2048x3_o0_1_S2048x1 : S2048x3.Slices ![0, 1] S2048x1
  slices_S3x21_o2_0_S1x21 : S3x21.Slices ![2, 0] S1x21
  slices_S2048x3_o0_2_S2048x1 : S2048x3.Slices ![0, 2] S2048x1
  slices_S2048x9_o0_0_S2048x3 : S2048x9.Slices ![0, 0] S2048x3
  slices_S2048x9_o0_3_S2048x3 : S2048x9.Slices ![0, 3] S2048x3
  slices_S2048x9_o0_6_S2048x3 : S2048x9.Slices ![0, 6] S2048x3
  concatenates_S2048x21_S2048x21_S2048x42_d1 : Shape.Concatenates [S2048x21, S2048x21] S2048x42 1
  reduces_S2048x42_S2048 : S2048x42.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S1x1 : S1x1.ShapeCasts S1x1
  shapeCasts_S1x1_S_ : S1x1.ShapeCasts S_
  shapeCasts_S_S1 : S_.ShapeCasts S1
  gather_S3x21_S6x1_S3x6_0_1_n_n_1_1_31_wf : GatherDims.WF S3x21 S6x1 S3x6 [0] [1] [] [1] [] 1 ![3, 1]
  dot_S2048x3_S3x3_S2048x3_1_0_0_1_n_n_wf : DotDims.WF S2048x3 S3x3 S2048x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x9.size a ≤ S262144x9.size a
  hwx0_0 : ∀ i : grid0.Coords, EltTy.bits .f32 = 32 ∨ (Rect.block (s := S262144x9) S2048x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x3.size a ≤ S262144x3.size a
  hwx0_1 : ∀ i : grid0.Coords, EltTy.bits .f32 = 32 ∨ (Rect.block (s := S262144x3) S2048x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x42.size a ≤ S262144x42.size a
  hwx0_2 : ∀ i : grid0.Coords, EltTy.bits .f32 = 32 ∨ (Rect.block (s := S262144x42) S2048x42.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x21.size a ≤ S3x21.size a
  hwx0_3 : ∀ i : grid0.Coords, EltTy.bits .f32 = 32 ∨ (Rect.block (s := S3x21) S3x21.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x3.size a ≤ S3x3.size a
  hwx0_4 : ∀ i : grid0.Coords, EltTy.bits .f32 = 32 ∨ (Rect.block (s := S3x3) S3x3.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def gather_S3x21_S6x1_S3x6_0_1_n_n_1_1_31 : GatherDims S3x21 S6x1 S3x6 where
  offsetDims := [0]
  collapsedSliceDims := [1]
  operandBatchingDims := []
  startIndicesBatchingDims := []
  startIndexMap := [1]
  indexVectorDim := 1
  sliceSizes := ![3, 1]
  wf := gather_S3x21_S6x1_S3x6_0_1_n_n_1_1_31_wf
def dot_S2048x3_S3x3_S2048x3_1_0_0_1_n_n : DotDims S2048x3 S3x3 S2048x3 where
  lhsContracting := [1]
  rhsContracting := [0]
  lhsNonContracting := [0]
  rhsNonContracting := [1]
  lhsBatch := []
  rhsBatch := []
  wf := dot_S2048x3_S3x3_S2048x3_1_0_0_1_n_n_wf

abbrev win0_0 : Pipeline.Window sig grid0 :=
  Pipeline.Window.ofSpec (Memref.whole main_v30) S2048x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2048x42.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S3x21.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S3x21 : Shape := ⟨2, ![3, 21]⟩
abbrev S262144x2x21 : Shape := ⟨3, ![262144, 2, 21]⟩
abbrev S262144x3x3 : Shape := ⟨3, ![262144, 3, 3]⟩
abbrev S262144x3x1 : Shape := ⟨3, ![262144, 3, 1]⟩
abbrev S3x3 : Shape := ⟨2, ![3, 3]⟩
abbrev S6 : Shape := ⟨1, ![6]⟩
abbrev S_ : Shape := ⟨0, ![]⟩
abbrev S6x1 : Shape := ⟨2, ![6, 1]⟩
abbrev S3x6 : Shape := ⟨2, ![3, 6]⟩
abbrev S1x3x21 : Shape := ⟨3, ![1, 3, 21]⟩
abbrev S262144x3x21 : Shape := ⟨3, ![262144, 3, 21]⟩
abbrev S262144x1x21 : Shape := ⟨3, ![262144, 1, 21]⟩
abbrev S262144x21 : Shape := ⟨2, ![262144, 21]⟩
abbrev S1 : Shape := ⟨1, ![1]⟩

abbrev nBuf : Space → Nat
  | .hbm => 92
  | .vmem => 0
  | .smem => 0
  | _ => 0

abbrev bufTy : (tb : Table) → Fin (tcTables nBuf tb) → BufTy
  | .hbm, ⟨0, _⟩ => ⟨S3x21, .f32⟩
  | .hbm, ⟨1, _⟩ => ⟨S262144x2x21, .f32⟩
  | .hbm, ⟨2, _⟩ => ⟨S262144x3x3, .f32⟩
  | .hbm, ⟨3, _⟩ => ⟨S262144x3x1, .f32⟩
  | .hbm, ⟨4, _⟩ => ⟨S3x3, .f32⟩
  | .hbm, ⟨5, _⟩ => ⟨S6, .i32⟩
  | .hbm, ⟨6, _⟩ => ⟨S6, .i1⟩
  | .hbm, ⟨7, _⟩ => ⟨S6, .i32⟩
  | .hbm, ⟨8, _⟩ => ⟨S6, .i1⟩
  | .hbm, ⟨9, _⟩ => ⟨S6, .i32⟩
  | .hbm, ⟨10, _⟩ => ⟨S6, .i1⟩
  | .hbm, ⟨11, _⟩ => ⟨S6, .i32⟩
  | .hbm, ⟨12, _⟩ => ⟨S6, .i1⟩
  | .hbm, ⟨13, _⟩ => ⟨S_, .i32⟩
  | .hbm, ⟨14, _⟩ => ⟨S6, .i32⟩
  | .hbm, ⟨15, _⟩ => ⟨S6, .i32⟩
  | .hbm, ⟨16, _⟩ => ⟨S6, .i32⟩
  | .hbm, ⟨17, _⟩ => ⟨S6x1, .i32⟩
  | .hbm, ⟨18, _⟩ => ⟨S3x6, .f32⟩
  | .hbm, ⟨19, _⟩ => ⟨S_, .i32⟩
  | .hbm, ⟨20, _⟩ => ⟨S6, .i32⟩
  | .hbm, ⟨21, _⟩ => ⟨S6, .i32⟩
  | .hbm, ⟨22, _⟩ => ⟨S6, .i32⟩
  | .hbm, ⟨23, _⟩ => ⟨S6x1, .i32⟩
  | .hbm, ⟨24, _⟩ => ⟨S3x6, .f32⟩
  | .hbm, ⟨25, _⟩ => ⟨S3x6, .f32⟩
  | .hbm, ⟨26, _⟩ => ⟨S_, .i32⟩
  | .hbm, ⟨27, _⟩ => ⟨S6, .i32⟩
  | .hbm, ⟨28, _⟩ => ⟨S6, .i32⟩
  | .hbm, ⟨29, _⟩ => ⟨S6, .i32⟩
  | .hbm, ⟨30, _⟩ => ⟨S6x1, .i32⟩
  | .hbm, ⟨31, _⟩ => ⟨S3x6, .f32⟩
  | .hbm, ⟨32, _⟩ => ⟨S_, .i32⟩
  | .hbm, ⟨33, _⟩ => ⟨S6, .i32⟩
  | .hbm, ⟨34, _⟩ => ⟨S6, .i32⟩
  | .hbm, ⟨35, _⟩ => ⟨S6, .i32⟩
  | .hbm, ⟨36, _⟩ => ⟨S6x1, .i32⟩
  | .hbm, ⟨37, _⟩ => ⟨S3x6, .f32⟩
  | .hbm, ⟨38, _⟩ => ⟨S3x6, .f32⟩
  | .hbm, ⟨39, _⟩ => ⟨S3x6, .f32⟩
  | .hbm, ⟨40, _⟩ => ⟨S_, .f32⟩
  | .hbm, ⟨41, _⟩ => ⟨S6, .f32⟩
  | .hbm, ⟨42, _⟩ => ⟨S3x6, .f32⟩
  | .hbm, ⟨43, _⟩ => ⟨S_, .f32⟩
  | .hbm, ⟨44, _⟩ => ⟨S6, .f32⟩
  | .hbm, ⟨45, _⟩ => ⟨S6, .f32⟩
  | .hbm, ⟨46, _⟩ => ⟨S6, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S1x3x21, .f32⟩
  | .hbm, ⟨52, _⟩ => ⟨S262144x3x21, .f32⟩
  | .hbm, ⟨53, _⟩ => ⟨S262144x3x21, .f32⟩
  | .hbm, ⟨54, _⟩ => ⟨S262144x3x21, .f32⟩
  | .hbm, ⟨55, _⟩ => ⟨S262144x3x3, .f32⟩
  | .hbm, ⟨56, _⟩ => ⟨S262144x3x21, .f32⟩
  | .hbm, ⟨57, _⟩ => ⟨S262144x1x21, .f32⟩
  | .hbm, ⟨58, _⟩ => ⟨S262144x21, .f32⟩
  | .hbm, ⟨59, _⟩ => ⟨S262144x1x21, .f32⟩
  | .hbm, ⟨60, _⟩ => ⟨S262144x21, .f32⟩
  | .hbm, ⟨61, _⟩ => ⟨S_, .f32⟩
  | .hbm, ⟨62, _⟩ => ⟨S262144x21, .f32⟩
  | .hbm, ⟨63, _⟩ => ⟨S262144x21, .f32⟩
  | .hbm, ⟨64, _⟩ => ⟨S262144x21, .f32⟩
  | .hbm, ⟨65, _⟩ => ⟨S_, .f32⟩
  | .hbm, ⟨66, _⟩ => ⟨S262144x21, .f32⟩
  | .hbm, ⟨67, _⟩ => ⟨S262144x21, .f32⟩
  | .hbm, ⟨68, _⟩ => ⟨S262144x1x21, .f32⟩
  | .hbm, ⟨69, _⟩ => ⟨S262144x21, .f32⟩
  | .hbm, ⟨70, _⟩ => ⟨S_, .f32⟩
  | .hbm, ⟨71, _⟩ => ⟨S262144x21, .f32⟩
  | .hbm, ⟨72, _⟩ => ⟨S262144x21, .f32⟩
  | .hbm, ⟨73, _⟩ => ⟨S262144x21, .f32⟩
  | .hbm, ⟨74, _⟩ => ⟨S_, .f32⟩
  | .hbm, ⟨75, _⟩ => ⟨S262144x21, .f32⟩
  | .hbm, ⟨76, _⟩ => ⟨S262144x21, .f32⟩
  | .hbm, ⟨77, _⟩ => ⟨S262144x1x21, .f32⟩
  | .hbm, ⟨78, _⟩ => ⟨S262144x1x21, .f32⟩
  | .hbm, ⟨79, _⟩ => ⟨S262144x2x21, .f32⟩
  | .hbm, ⟨80, _⟩ => ⟨S262144x2x21, .f32⟩
  | .hbm, ⟨81, _⟩ => ⟨S262144x2x21, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S1, .f32⟩
  | _, _ => ⟨S3x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_c_4 : Ref sig .tc := ⟨.hbm, 10, rfl⟩
abbrev main_c_5 : Ref sig .tc := ⟨.hbm, 11, rfl⟩
abbrev main_c_6 : Ref sig .tc := ⟨.hbm, 12, rfl⟩
abbrev main_c_7 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_8 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_9 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_10 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst : Ref sig .tc := ⟨.hbm, 40, rfl⟩
abbrev main_v23 : Ref sig .tc := ⟨.hbm, 41, rfl⟩
abbrev main_v24 : Ref sig .tc := ⟨.hbm, 42, rfl⟩
abbrev main_cst_11 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_12 : Ref sig .tc := ⟨.hbm, 47, rfl⟩
abbrev main_v28 : Ref sig .tc := ⟨.hbm, 48, rfl⟩
abbrev main_cst_13 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_14 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_15 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_16 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_17 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_18 : Ref sig .tc := ⟨.hbm, 82, rfl⟩
abbrev main_v57 : Ref sig .tc := ⟨.hbm, 83, rfl⟩
abbrev main_cst_19 : Ref sig .tc := ⟨.hbm, 84, rfl⟩
abbrev main_v58 : Ref sig .tc := ⟨.hbm, 85, rfl⟩
abbrev main_cst_20 : Ref sig .tc := ⟨.hbm, 86, rfl⟩
abbrev main_v59 : Ref sig .tc := ⟨.hbm, 87, rfl⟩
abbrev main_cst_21 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩

abbrev nD : Nat := 1
abbrev τ : Topo := Topo.v7x

variable {F : FTy → Type} [FloatOps F]

class Facts₀ : Prop where
  bcast_S_S6 : S_.BroadcastsInDim S6 (![] : Fin 0 → Fin S6.rank)
  bcast_S6_S6x1_0 : S6.BroadcastsInDim S6x1 (![0] : Fin 1 → Fin S6x1.rank)
  reducesTo_S3x6_S6_d0 : S3x6.ReducesTo [0] S6
  h_S_ : 0 < S_.numel
  reducesTo_S6_S_d0 : S6.ReducesTo [0] S_
  bcast_S3x21_S1x3x21_1_2 : S3x21.BroadcastsInDim S1x3x21 (![1, 2] : Fin 2 → Fin S1x3x21.rank)
  bcast_S1x3x21_S262144x3x21_0_1_2 : S1x3x21.BroadcastsInDim S262144x3x21 (![0, 1, 2] : Fin 3 → Fin S262144x3x21.rank)
  bcast_S262144x3x1_S262144x3x21_0_1_2 : S262144x3x1.BroadcastsInDim S262144x3x21 (![0, 1, 2] : Fin 3 → Fin S262144x3x21.rank)
  slices_S262144x3x21_S262144x1x21_0_2_0 : S262144x3x21.Slices ![0, 2, 0] S262144x1x21
  shapeCasts_S262144x1x21_S262144x21 : S262144x1x21.ShapeCasts S262144x21
  slices_S262144x3x21_S262144x1x21_0_0_0 : S262144x3x21.Slices ![0, 0, 0] S262144x1x21
  bcast_S_S262144x21 : S_.BroadcastsInDim S262144x21 (![] : Fin 0 → Fin S262144x21.rank)
  slices_S262144x3x21_S262144x1x21_0_1_0 : S262144x3x21.Slices ![0, 1, 0] S262144x1x21
  bcast_S262144x21_S262144x1x21_0_2 : S262144x21.BroadcastsInDim S262144x1x21 (![0, 2] : Fin 2 → Fin S262144x1x21.rank)
  concatenates_S262144x1x21_S262144x1x21_S262144x2x21_d1 : Shape.Concatenates [S262144x1x21, S262144x1x21] S262144x2x21 1
  reducesTo_S262144x2x21_S_d0_1_2 : S262144x2x21.ReducesTo [0, 1, 2] S_
  shapeCasts_S_S1 : S_.ShapeCasts S1
  gather_S3x21_S6x1_S3x6_0_1_n_n_1_1_31_wf : GatherDims.WF S3x21 S6x1 S3x6 [0] [1] [] [1] [] 1 ![3, 1]
  dot_S262144x3x3_S3x3_S262144x3x3_2_0_01_1_n_n_wf : DotDims.WF S262144x3x3 S3x3 S262144x3x3 [2] [0] [0, 1] [1] [] []
  dot_S262144x3x3_S262144x3x21_S262144x3x21_1_1_2_2_0_0_wf : DotDims.WF S262144x3x3 S262144x3x21 S262144x3x21 [1] [1] [2] [2] [0] [0]

variable [Facts₀]

def gather_S3x21_S6x1_S3x6_0_1_n_n_1_1_31 : GatherDims S3x21 S6x1 S3x6 where
  offsetDims := [0]
  collapsedSliceDims := [1]
  operandBatchingDims := []
  startIndicesBatchingDims := []
  startIndexMap := [1]
  indexVectorDim := 1
  sliceSizes := ![3, 1]
  wf := gather_S3x21_S6x1_S3x6_0_1_n_n_1_1_31_wf
def dot_S262144x3x3_S3x3_S262144x3x3_2_0_01_1_n_n : DotDims S262144x3x3 S3x3 S262144x3x3 where
  lhsContracting := [2]
  rhsContracting := [0]
  lhsNonContracting := [0, 1]
  rhsNonContracting := [1]
  lhsBatch := []
  rhsBatch := []
  wf := dot_S262144x3x3_S3x3_S262144x3x3_2_0_01_1_n_n_wf
def dot_S262144x3x3_S262144x3x21_S262144x3x21_1_1_2_2_0_0 : DotDims S262144x3x3 S262144x3x21 S262144x3x21 where
  lhsContracting := [1]
  rhsContracting := [1]
  lhsNonContracting := [2]
  rhsNonContracting := [2]
  lhsBatch := [0]
  rhsBatch := [0]
  wf := dot_S262144x3x3_S262144x3x21_S262144x3x21_1_1_2_2_0_0_wf

class Facts : Prop extends Facts₀ where

variable [Facts]
-- ==== Proof.KBody.lean ====
/-
  The kernel's accumulator, read off its run. The body adds one block's squared-error total into a 1x1 output block
  whose index never moves: at the first grid point it stores zero and adds the block's total to it, at every later
  point it adds the block's total to what the point before left, and the block is written back to its array only
  after the last of the 128 points. So the array ends holding the zero updated by blocks 0, 1, …, 127 in turn.
  Everything here holds at every float instance; nothing is evaluated.
-/
import proofs.«166337_j45707041964540_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- One grid point's update of the 1x1 accumulator, as the body computes it from the point's five input blocks and
    the accumulator's contents before the point. -/
abbrev step (x0 : Vec F S2048x9 .f32) (x1 : Vec F S2048x3 .f32) (x2 : Vec F S2048x42 .f32) (x3 : Vec F S3x21 .f32) (x4 : Vec F S3x3 .f32) (acc : Vec F S1x1 .f32) : Vec F S1x1 .f32 :=
  k0_pay1 (k0_pay5 x2) (k0_pay6 x1 x3) (k0_pay7 x1 x3) (k0_pay8 x1 x3) (k0_pay9 x0 x4) (k0_pay10 x0 x4) (k0_pay11 x0 x4)
    (k0_pay12 x0 x1 x3 x4) acc

/-- At a point after the first the body leaves, in the accumulator's buffer holding `xo`, the update of `xo` by the
    point's blocks: its one store covers the buffer, and its loads read the whole input buffers. -/
theorem out_B (c : Dev nD) (i : grid0.Coords) (a1 : Memref sig .tc .vmem S2048x9 .f32) (h1 : a1.IsWhole) (a2 : Memref sig .tc .vmem S2048x3 .f32) (h2 : a2.IsWhole) (a3 : Memref sig .tc .vmem S2048x42 .f32) (h3 : a3.IsWhole) (a4 : Memref sig .tc .vmem S3x21 .f32) (h4 : a4.IsWhole) (a5 : Memref sig .tc .vmem S3x3 .f32) (h5 : a5.IsWhole) (a6 : Memref sig .tc .vmem S1x1 .f32) (h6 : a6.IsWhole) (hc : ¬cond0_0 i) (x0 : Vec F S2048x9 .f32) (x1 : Vec F S2048x3 .f32) (x2 : Vec F S2048x42 .f32) (x3 : Vec F S3x21 .f32) (x4 : Vec F S3x3 .f32) (xo : Vec F S1x1 .f32) :
    out0_B_5 c i a1 h1 a2 h2 a3 h3 a4 h4 a5 h5 a6 h6 hc x0 x1 x2 x3 x4 xo = step x0 x1 x2 x3 x4 xo := by
  unfold out0_B_5
  rw [View.read_writes_eq_canon _ _ _ (cover0_B_5 c i a1 h1 a2 h2 a3 h3 a4 h4 a5 h5 a6 h6 hc x0 x1 x2 x3 x4 xo)]
  unfold kernelRun0_B
  dsimp only
  sl_unfold_words
  rw [View.canon_unit_zero hz]
  simp only [View.readAt_eq_ld, h1.read_unread, h2.read_unread, h3.read_unread, h4.read_unread, h5.read_unread, h6.read_unread,
    View.ld_unit_zero (S := S2048x9) hz, View.ld_unit_zero (S := S2048x3) hz, View.ld_unit_zero (S := S2048x42) hz,
    View.ld_unit_zero (S := S3x21) hz, View.ld_unit_zero (S := S3x3) hz, View.ld_unit_zero (S := S1x1) hz]

/-- At the first point the body stores the zero, reads it back, and leaves the update of the zero by the point's blocks. -/
theorem out_A (c : Dev nD) (i : grid0.Coords) (a1 : Memref sig .tc .vmem S2048x9 .f32) (h1 : a1.IsWhole) (a2 : Memref sig .tc .vmem S2048x3 .f32) (h2 : a2.IsWhole) (a3 : Memref sig .tc .vmem S2048x42 .f32) (h3 : a3.IsWhole) (a4 : Memref sig .tc .vmem S3x21 .f32) (h4 : a4.IsWhole) (a5 : Memref sig .tc .vmem S3x3 .f32) (h5 : a5.IsWhole) (a6 : Memref sig .tc .vmem S1x1 .f32) (h6 : a6.IsWhole) (hc : cond0_0 i) (x0 : Vec F S2048x9 .f32) (x1 : Vec F S2048x3 .f32) (x2 : Vec F S2048x42 .f32) (x3 : Vec F S3x21 .f32) (x4 : Vec F S3x3 .f32) :
    out0_A_5 c i a1 h1 a2 h2 a3 h3 a4 h4 a5 h5 a6 h6 hc x0 x1 x2 x3 x4 = step x0 x1 x2 x3 x4 (k0_pay2 (F := F)) := by
  unfold out0_A_5
  rw [View.read_writes_eq_canon _ _ _ (cover0_A_5 c i a1 h1 a2 h2 a3 h3 a4 h4 a5 h5 a6 h6 hc x0 x1 x2 x3 x4)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h6.read_unread,
    View.ld_unit_zero (S := S2048x9) hz, View.ld_unit_zero (S := S2048x3) hz, View.ld_unit_zero (S := S2048x42) hz,
    View.ld_unit_zero (S := S3x21) hz, View.ld_unit_zero (S := S3x3) hz, View.ld_unit_zero (S := S1x1) hz]

/-- The accumulator after point `n`: the zero updated by the blocks of points 0, 1, …, n in turn. -/
def chain (c : Dev nD) : (n : ℕ) → n < cfg0.N → Vec F S1x1 .f32
  | 0, h => step (iblk m c 0 ⟨0, h⟩) (iblk m c 1 ⟨0, h⟩) (iblk m c 2 ⟨0, h⟩) (iblk m c 3 ⟨0, h⟩) (iblk m c 4 ⟨0, h⟩) (k0_pay2 (F := F))
  | n + 1, h => step (iblk m c 0 ⟨n + 1, h⟩) (iblk m c 1 ⟨n + 1, h⟩) (iblk m c 2 ⟨n + 1, h⟩) (iblk m c 3 ⟨n + 1, h⟩)
      (iblk m c 4 ⟨n + 1, h⟩) (chain c n (Nat.lt_of_succ_lt h))

/-- What the accumulator's buffer holds after point `n` is that chain: by induction on the point. -/
theorem outsAt_eq (c : Dev nD) : ∀ (n : ℕ) (h : n < cfg0.N), outsAt0 m c n h = chain m c n h
  | 0, h => (outsAt0_A m c ⟨0, h⟩ rfl).trans (out_A ..)
  | n + 1, h => by
    have hN : cfg0.N = 128 := N_0
    have hB : ¬(⟨n + 1, h⟩ : Fin cfg0.N).val % 128 = 0 := by dsimp only; omega
    rw [outsAt0_B m c ⟨n + 1, h⟩ hB, out_B]
    show step _ _ _ _ _ (outsAt0 m c n _) = step _ _ _ _ _ (chain m c n _)
    rw [outsAt_eq c n]

/-- The last of the 128 grid points. -/
abbrev tLast : Fin cfg0.N := ⟨127, by rw [show cfg0.N = 128 from N_0]; decide⟩

/-- The accumulator's array after the region: the chain after the last point (its one block is the whole array). -/
abbrev result (c : Dev nD) : Buf (Elt F) ((c : Thread nD τ).loc main_v33) := chain m c 127 tLast.isLt

/-- The one write-back, at the last point, writes the chain: block (0, 0) of the 1x1 array read through zero offsets
    is the array. -/
theorem flushed_eq (c : Dev nD) (t : Fin cfg0.N) (hf : (cfg0.win 5).flush t = true) :
    (dats m 0 c).flushed 5 t = ((cfg0.win 5).blk t).view.read (Elt F) (result m c) := by
  have hN : cfg0.N = 128 := N_0
  have h3 : t.val = 127 := by have := (flush0_5 t).mp hf; have := t.isLt; omega
  obtain rfl : t = tLast := Fin.ext h3
  show (cfg0.win 5).cut (grid0.coords tLast) ((dats m 0 c).after 5 tLast) = _
  rw [after0_5, outsAt_eq]
  have hz' : (fun a => win0_5.index tLast a * main_v33.ty.shape.size a) = fun _ => 0 := funext fun a => by fin_cases a <;> decide
  exact (Memref.read_access_unit_zero (Elt F) main_v33 hz' (fun a => by rw [congrFun hz' a]; simp) (result m c)).symm

/-- So the accumulator's array ends holding the chain after the last point: that point's block covers it. -/
theorem final_o (c : Dev nD) : (dats m 0 c).arrAt 5 cfg0.N = result m c :=
  (dats m 0 c).arrAt_eq_of_cover 5 (result m c) (flushed_eq m c) fun i =>
    ⟨tLast, (flush0_5 tLast).mpr rfl, by
      show i ∈ ((View.whole main_v33).slice (win0_5.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 1 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 1 from by decide +kernel]; omega⟩

end Cert.KernelIdeal.Body

end
-- ==== Proof.KRun.lean ====
/-
  The kernel's program around its region, read. Before the region the host computes the symmetry term from
  `pose3d` and flattens the three per-sample arrays to two axes; after it, the host divides the accumulated total
  by the element count, halves it, adds the symmetry term, and returns a one-element vector. This module names
  those compositions and reads the generated run of the whole program through them; it holds at every float instance.
-/
import proofs.«166337_j45707041964540_1_alg».proof.Proof.KBody
import Idealize.ShloMosaic.Lib.StableHlo.Run

noncomputable section

open Idealize.ShloMosaic Idealize.ShloMosaic.TcCoe Idealize.SL.Sem
open Idealize.ShloMosaic.Pipeline (Dat)

namespace Cert.KernelIdeal.KRun

open Cert.KernelIdeal Cert.KernelIdeal.Gen Cert.KernelIdeal.Body Idealize.ShloMosaic.StableHlo

variable {F : FTy → Type} [FloatOps F]

/-- The symmetry term: the host operations before the region that read `pose3d` only — four gathers of bone
    end-points, their differences, squared lengths, the left-right differences squared, and their mean over the
    six bones —, composed in program order. Never opened: the reference computes the same term. -/
def sym (a0 : (⟨S3x21, .f32⟩ : BufTy).Contents (Elt F)) : (⟨S_, .f32⟩ : BufTy).Contents (Elt F) :=
  have t_c : (⟨S6, .i32⟩ : BufTy).Contents (Elt F) := (fun i => lit0 (S6.rowMajor i))
  have t_c_0 : (⟨S6, .i1⟩ : BufTy).Contents (Elt F) := (constantI S6 1 0#1)
  have t_c_1 : (⟨S6, .i32⟩ : BufTy).Contents (Elt F) := (fun i => lit1 (S6.rowMajor i))
  have t_c_2 : (⟨S6, .i1⟩ : BufTy).Contents (Elt F) := (constantI S6 1 0#1)
  have t_c_3 : (⟨S6, .i32⟩ : BufTy).Contents (Elt F) := (fun i => lit2 (S6.rowMajor i))
  have t_c_4 : (⟨S6, .i1⟩ : BufTy).Contents (Elt F) := (constantI S6 1 0#1)
  have t_c_5 : (⟨S6, .i32⟩ : BufTy).Contents (Elt F) := (fun i => lit3 (S6.rowMajor i))
  have t_c_6 : (⟨S6, .i1⟩ : BufTy).Contents (Elt F) := (constantI S6 1 0#1)
  have t_c_7 : (⟨S_, .i32⟩ : BufTy).Contents (Elt F) := (constantI S_ 32 21#32)
  have t_v0 : (⟨S6, .i32⟩ : BufTy).Contents (Elt F) := (broadcastInDim S6 ![] bcast_S_S6 : (⟨S_, .i32⟩ : BufTy).Contents (Elt F) → (⟨S6, .i32⟩ : BufTy).Contents (Elt F)) t_c_7
  have t_v1 : (⟨S6, .i32⟩ : BufTy).Contents (Elt F) := (addi : (⟨S6, .i32⟩ : BufTy).Contents (Elt F) → (⟨S6, .i32⟩ : BufTy).Contents (Elt F) → (⟨S6, .i32⟩ : BufTy).Contents (Elt F)) t_c t_v0
  have t_v2 : (⟨S6, .i32⟩ : BufTy).Contents (Elt F) := (select : (⟨S6, .i1⟩ : BufTy).Contents (Elt F) → (⟨S6, .i32⟩ : BufTy).Contents (Elt F) → (⟨S6, .i32⟩ : BufTy).Contents (Elt F) → (⟨S6, .i32⟩ : BufTy).Contents (Elt F)) t_c_0 t_v1 t_c
  have t_v3 : (⟨S6x1, .i32⟩ : BufTy).Contents (Elt F) := (broadcastInDim S6x1 ![0] bcast_S6_S6x1_0 : (⟨S6, .i32⟩ : BufTy).Contents (Elt F) → (⟨S6x1, .i32⟩ : BufTy).Contents (Elt F)) t_v2
  have t_v4 : (⟨S3x6, .f32⟩ : BufTy).Contents (Elt F) := ((fun x i => Host.gather gather_S3x21_S6x1_S3x6_0_1_n_n_1_1_31 x i) : (⟨S3x21, .f32⟩ : BufTy).Contents (Elt F) → (⟨S6x1, .i32⟩ : BufTy).Contents (Elt F) → (⟨S3x6, .f32⟩ : BufTy).Contents (Elt F)) a0 t_v3
  have t_c_8 : (⟨S_, .i32⟩ : BufTy).Contents (Elt F) := (constantI S_ 32 21#32)
  have t_v5 : (⟨S6, .i32⟩ : BufTy).Contents (Elt F) := (broadcastInDim S6 ![] bcast_S_S6 : (⟨S_, .i32⟩ : BufTy).Contents (Elt F) → (⟨S6, .i32⟩ : BufTy).Contents (Elt F)) t_c_8
  have t_v6 : (⟨S6, .i32⟩ : BufTy).Contents (Elt F) := (addi : (⟨S6, .i32⟩ : BufTy).Contents (Elt F) → (⟨S6, .i32⟩ : BufTy).Contents (Elt F) → (⟨S6, .i32⟩ : BufTy).Contents (Elt F)) t_c_1 t_v5
  have t_v7 : (⟨S6, .i32⟩ : BufTy).Contents (Elt F) := (select : (⟨S6, .i1⟩ : BufTy).Contents (Elt F) → (⟨S6, .i32⟩ : BufTy).Contents (Elt F) → (⟨S6, .i32⟩ : BufTy).Contents (Elt F) → (⟨S6, .i32⟩ : BufTy).Contents (Elt F)) t_c_2 t_v6 t_c_1
  have t_v8 : (⟨S6x1, .i32⟩ : BufTy).Contents (Elt F) := (broadcastInDim S6x1 ![0] bcast_S6_S6x1_0 : (⟨S6, .i32⟩ : BufTy).Contents (Elt F) → (⟨S6x1, .i32⟩ : BufTy).Contents (Elt F)) t_v7
  have t_v9 : (⟨S3x6, .f32⟩ : BufTy).Contents (Elt F) := ((fun x i => Host.gather gather_S3x21_S6x1_S3x6_0_1_n_n_1_1_31 x i) : (⟨S3x21, .f32⟩ : BufTy).Contents (Elt F) → (⟨S6x1, .i32⟩ : BufTy).Contents (Elt F) → (⟨S3x6, .f32⟩ : BufTy).Contents (Elt F)) a0 t_v8
  have t_v10 : (⟨S3x6, .f32⟩ : BufTy).Contents (Elt F) := (subf : (⟨S3x6, .f32⟩ : BufTy).Contents (Elt F) → (⟨S3x6, .f32⟩ : BufTy).Contents (Elt F) → (⟨S3x6, .f32⟩ : BufTy).Contents (Elt F)) t_v4 t_v9
  have t_c_9 : (⟨S_, .i32⟩ : BufTy).Contents (Elt F) := (constantI S_ 32 21#32)
  have t_v11 : (⟨S6, .i32⟩ : BufTy).Contents (Elt F) := (broadcastInDim S6 ![] bcast_S_S6 : (⟨S_, .i32⟩ : BufTy).Contents (Elt F) → (⟨S6, .i32⟩ : BufTy).Contents (Elt F)) t_c_9
  have t_v12 : (⟨S6, .i32⟩ : BufTy).Contents (Elt F) := (addi : (⟨S6, .i32⟩ : BufTy).Contents (Elt F) → (⟨S6, .i32⟩ : BufTy).Contents (Elt F) → (⟨S6, .i32⟩ : BufTy).Contents (Elt F)) t_c_3 t_v11
  have t_v13 : (⟨S6, .i32⟩ : BufTy).Contents (Elt F) := (select : (⟨S6, .i1⟩ : BufTy).Contents (Elt F) → (⟨S6, .i32⟩ : BufTy).Contents (Elt F) → (⟨S6, .i32⟩ : BufTy).Contents (Elt F) → (⟨S6, .i32⟩ : BufTy).Contents (Elt F)) t_c_4 t_v12 t_c_3
  have t_v14 : (⟨S6x1, .i32⟩ : BufTy).Contents (Elt F) := (broadcastInDim S6x1 ![0] bcast_S6_S6x1_0 : (⟨S6, .i32⟩ : BufTy).Contents (Elt F) → (⟨S6x1, .i32⟩ : BufTy).Contents (Elt F)) t_v13
  have t_v15 : (⟨S3x6, .f32⟩ : BufTy).Contents (Elt F) := ((fun x i => Host.gather gather_S3x21_S6x1_S3x6_0_1_n_n_1_1_31 x i) : (⟨S3x21, .f32⟩ : BufTy).Contents (Elt F) → (⟨S6x1, .i32⟩ : BufTy).Contents (Elt F) → (⟨S3x6, .f32⟩ : BufTy).Contents (Elt F)) a0 t_v14
  have t_c_10 : (⟨S_, .i32⟩ : BufTy).Contents (Elt F) := (constantI S_ 32 21#32)
  have t_v16 : (⟨S6, .i32⟩ : BufTy).Contents (Elt F) := (broadcastInDim S6 ![] bcast_S_S6 : (⟨S_, .i32⟩ : BufTy).Contents (Elt F) → (⟨S6, .i32⟩ : BufTy).Contents (Elt F)) t_c_10
  have t_v17 : (⟨S6, .i32⟩ : BufTy).Contents (Elt F) := (addi : (⟨S6, .i32⟩ : BufTy).Contents (Elt F) → (⟨S6, .i32⟩ : BufTy).Contents (Elt F) → (⟨S6, .i32⟩ : BufTy).Contents (Elt F)) t_c_5 t_v16
  have t_v18 : (⟨S6, .i32⟩ : BufTy).Contents (Elt F) := (select : (⟨S6, .i1⟩ : BufTy).Contents (Elt F) → (⟨S6, .i32⟩ : BufTy).Contents (Elt F) → (⟨S6, .i32⟩ : BufTy).Contents (Elt F) → (⟨S6, .i32⟩ : BufTy).Contents (Elt F)) t_c_6 t_v17 t_c_5
  have t_v19 : (⟨S6x1, .i32⟩ : BufTy).Contents (Elt F) := (broadcastInDim S6x1 ![0] bcast_S6_S6x1_0 : (⟨S6, .i32⟩ : BufTy).Contents (Elt F) → (⟨S6x1, .i32⟩ : BufTy).Contents (Elt F)) t_v18
  have t_v20 : (⟨S3x6, .f32⟩ : BufTy).Contents (Elt F) := ((fun x i => Host.gather gather_S3x21_S6x1_S3x6_0_1_n_n_1_1_31 x i) : (⟨S3x21, .f32⟩ : BufTy).Contents (Elt F) → (⟨S6x1, .i32⟩ : BufTy).Contents (Elt F) → (⟨S3x6, .f32⟩ : BufTy).Contents (Elt F)) a0 t_v19
  have t_v21 : (⟨S3x6, .f32⟩ : BufTy).Contents (Elt F) := (subf : (⟨S3x6, .f32⟩ : BufTy).Contents (Elt F) → (⟨S3x6, .f32⟩ : BufTy).Contents (Elt F) → (⟨S3x6, .f32⟩ : BufTy).Contents (Elt F)) t_v15 t_v20
  have t_v22 : (⟨S3x6, .f32⟩ : BufTy).Contents (Elt F) := (mulf : (⟨S3x6, .f32⟩ : BufTy).Contents (Elt F) → (⟨S3x6, .f32⟩ : BufTy).Contents (Elt F) → (⟨S3x6, .f32⟩ : BufTy).Contents (Elt F)) t_v10 t_v10
  have t_cst : (⟨S_, .f32⟩ : BufTy).Contents (Elt F) := (constant S_ .f32 0x00000000#32)
  have t_v23 : (⟨S6, .f32⟩ : BufTy).Contents (Elt F) := ((fun x v => Host.reduceAdd x v reducesTo_S3x6_S6_d0 h_S_) : (⟨S3x6, .f32⟩ : BufTy).Contents (Elt F) → (⟨S_, .f32⟩ : BufTy).Contents (Elt F) → (⟨S6, .f32⟩ : BufTy).Contents (Elt F)) t_v22 t_cst
  have t_v24 : (⟨S3x6, .f32⟩ : BufTy).Contents (Elt F) := (mulf : (⟨S3x6, .f32⟩ : BufTy).Contents (Elt F) → (⟨S3x6, .f32⟩ : BufTy).Contents (Elt F) → (⟨S3x6, .f32⟩ : BufTy).Contents (Elt F)) t_v21 t_v21
  have t_cst_11 : (⟨S_, .f32⟩ : BufTy).Contents (Elt F) := (constant S_ .f32 0x00000000#32)
  have t_v25 : (⟨S6, .f32⟩ : BufTy).Contents (Elt F) := ((fun x v => Host.reduceAdd x v reducesTo_S3x6_S6_d0 h_S_) : (⟨S3x6, .f32⟩ : BufTy).Contents (Elt F) → (⟨S_, .f32⟩ : BufTy).Contents (Elt F) → (⟨S6, .f32⟩ : BufTy).Contents (Elt F)) t_v24 t_cst_11
  have t_v26 : (⟨S6, .f32⟩ : BufTy).Contents (Elt F) := (subf : (⟨S6, .f32⟩ : BufTy).Contents (Elt F) → (⟨S6, .f32⟩ : BufTy).Contents (Elt F) → (⟨S6, .f32⟩ : BufTy).Contents (Elt F)) t_v23 t_v25
  have t_v27 : (⟨S6, .f32⟩ : BufTy).Contents (Elt F) := (mulf : (⟨S6, .f32⟩ : BufTy).Contents (Elt F) → (⟨S6, .f32⟩ : BufTy).Contents (Elt F) → (⟨S6, .f32⟩ : BufTy).Contents (Elt F)) t_v26 t_v26
  have t_cst_12 : (⟨S_, .f32⟩ : BufTy).Contents (Elt F) := (constant S_ .f32 0x00000000#32)
  have t_v28 : (⟨S_, .f32⟩ : BufTy).Contents (Elt F) := ((fun x v => Host.reduceAdd x v reducesTo_S6_S_d0 h_S_) : (⟨S6, .f32⟩ : BufTy).Contents (Elt F) → (⟨S_, .f32⟩ : BufTy).Contents (Elt F) → (⟨S_, .f32⟩ : BufTy).Contents (Elt F)) t_v27 t_cst_12
  have t_cst_13 : (⟨S_, .f32⟩ : BufTy).Contents (Elt F) := (constant S_ .f32 0x40C00000#32)
  have t_v29 : (⟨S_, .f32⟩ : BufTy).Contents (Elt F) := (Host.divf : (⟨S_, .f32⟩ : BufTy).Contents (Elt F) → (⟨S_, .f32⟩ : BufTy).Contents (Elt F) → (⟨S_, .f32⟩ : BufTy).Contents (Elt F)) t_v28 t_cst_13
  t_v29

/-- The host operations after the region, composed: the accumulator as a scalar over the element count 2^19 · 21,
    halved, added to the symmetry term, as a one-element vector. -/
def out (s : (⟨S_, .f32⟩ : BufTy).Contents (Elt F)) (acc : (⟨S1x1, .f32⟩ : BufTy).Contents (Elt F)) : (⟨S1, .f32⟩ : BufTy).Contents (Elt F) :=
  shapeCast S1 (addf (mulf (constant S_ .f32 0x3F800000#32) s)
    (mulf (constant S_ .f32 0x3F000000#32) (Host.divf (shapeCast S_ acc shapeCasts_S1x1_S_) (constant S_ .f32 0x4B280000#32)))) shapeCasts_S_S1

variable (m : (ℓ : Loc nD τ sig) → Buf (Elt F) ℓ) (ρ : Dev nD → PrngReg)

set_option maxRecDepth 8192 in
set_option maxHeartbeats 20000000 in
/-- When the region is entered, the buffer of the symmetry term holds it, of `pose3d` as launched. -/
theorem V_v29 (c : Dev nD) : (V m c main_v29 : (⟨S_, .f32⟩ : BufTy).Contents (Elt F)) = sym (m ((c : Thread nD τ).loc main_arg0)) := by
  show StableHlo.after hostOps0 (fun b => m (c, b)) (Proc.devRef .tc main_v29) = _
  after_results_simp
  rfl

set_option maxRecDepth 8192 in
set_option maxHeartbeats 20000000 in
/-- The first window's array is `R_drone` with its two trailing axes merged: [262144, 3, 3] as [262144, 9]. -/
theorem V_v30 (c : Dev nD) : (V m c main_v30 : (⟨S262144x9, .f32⟩ : BufTy).Contents (Elt F))
    = shapeCast S262144x9 (m ((c : Thread nD τ).loc main_arg2)) shapeCasts_S262144x3x3_S262144x9 := by
  show StableHlo.after hostOps0 (fun b => m (c, b)) (Proc.devRef .tc main_v30) = _
  after_results_simp
  rfl

set_option maxRecDepth 8192 in
set_option maxHeartbeats 20000000 in
/-- The second window's array is `C_drone` with its unit axis dropped: [262144, 3, 1] as [262144, 3]. -/
theorem V_v31 (c : Dev nD) : (V m c main_v31 : (⟨S262144x3, .f32⟩ : BufTy).Contents (Elt F))
    = shapeCast S262144x3 (m ((c : Thread nD τ).loc main_arg3)) shapeCasts_S262144x3x1_S262144x3 := by
  show StableHlo.after hostOps0 (fun b => m (c, b)) (Proc.devRef .tc main_v31) = _
  after_results_simp
  rfl

set_option maxRecDepth 8192 in
set_option maxHeartbeats 20000000 in
/-- The third window's array is `bone_2d` with its two trailing axes merged: [262144, 2, 21] as [262144, 42]. -/
theorem V_v32 (c : Dev nD) : (V m c main_v32 : (⟨S262144x42, .f32⟩ : BufTy).Contents (Elt F))
    = shapeCast S262144x42 (m ((c : Thread nD τ).loc main_arg1)) shapeCasts_S262144x2x21_S262144x42 := by
  show StableHlo.after hostOps0 (fun b => m (c, b)) (Proc.devRef .tc main_v32) = _
  after_results_simp
  rfl

/-- After the host operations that follow the region, the result buffer holds them composed, of the symmetry term's
    buffer (which the region does not touch) and of the accumulator's array as the region leaves it. -/
theorem tail_eq (c : Dev nD) :
    Pipeline.afterTail₀ cfgs (dats m) 0 (V0 m) [hostOps1] c main_v39 = out (V m c main_v29) (result m c) := by
  have e29 : Pipeline.withArrays (cfgs 0).spec c (V0 m c) (fun w => (dats m 0 c).arrAt w (cfgs 0).N) (Proc.devRef .tc main_v29)
      = V m c main_v29 :=
    Pipeline.withArrays_of_ne _ c (V0 m c) _ main_v29 (by exact (by decide : ∀ w, Pipeline.arrRef spec0 w ≠ main_v29))
  have e33 : Pipeline.withArrays (cfgs 0).spec c (V0 m c) (fun w => (dats m 0 c).arrAt w (cfgs 0).N) (Proc.devRef .tc main_v33)
      = result m c :=
    (Pipeline.withArrays_arr spec0 launch0.win.arr_inj c _ _ 5).trans (final_o m c)
  unfold Pipeline.afterTail₀
  show StableHlo.after hostOps1 _ (Proc.devRef .tc main_v39) = _
  after_results
  rw [e29, e33]
  rfl

/-- The kernel's run, read: every weakly fair execution terminates with the result at the host tail of the symmetry
    term and the accumulated total, and the five arguments as launched. -/
theorem run : θ_run defs (onTc (τ := τ) (main (F := F))) ⟨m, fun _ => 0, ρ⟩ fun r => ∀ c : Dev nD,
      r.2.mem ((c.tc : Thread nD τ).loc main_v39) = out (sym (m ((c : Thread nD τ).loc main_arg0))) (result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(((h c).2 main_v39 (Pipeline.mem_restRefs_of main_v39 (by decide) (by decide))).trans (tail_eq m c)).trans
          (by rw [V_v29]),
        ((h c).1 3).trans (((dats m 0 c).arrAt_in 3 rfl _).trans ((A_eq m c 3).trans (V_main_arg0 m c))),
        (((h c).2 main_arg1 (Pipeline.mem_restRefs_of main_arg1 (by decide) (by decide))).trans (W_main_arg1 m (dats m) c)),
        (((h c).2 main_arg2 (Pipeline.mem_restRefs_of main_arg2 (by decide) (by decide))).trans (W_main_arg2 m (dats m) c)),
        (((h c).2 main_arg3 (Pipeline.mem_restRefs_of main_arg3 (by decide) (by decide))).trans (W_main_arg3 m (dats m) c)),
        ((h c).1 4).trans (((dats m 0 c).arrAt_in 4 rfl _).trans ((A_eq m c 4).trans (V_main_arg4 m c)))⟩)
    (run_main m ρ)

end Cert.KernelIdeal.KRun

end
-- ==== Proof.Spec.lean ====
/-
  The reprojection error as plain mathematics on the extended reals, over coordinate functions.

  ONE sample is a drone rotation `r` (3×3), a drone centre `c` (3) and observed 2-D joints `b` (2×21); the 3-D
  pose `pose` (3×21) and the camera rotation `K` (3×3) are shared by all samples. For a world axis `l`, a camera
  axis `i` and a joint `j`:
    P l j   = pose l j - c l                          the joint relative to the drone
    A l i   = ∑ k, r l k * K k i                      the drone's rotation composed with the camera's
    cam i j = A 0 i * P 0 j + A 1 i * P 1 j + A 2 i * P 2 j
    px j    = 512 * cam 0 j / cam 2 j + 512           the pinhole projection, x
    py j    = 512 * cam 1 j / cam 2 j + 288           the pinhole projection, y
  and the sample's squared error against `b`, summed over the joints, x then y. The total sums that over the 262144
  samples. The constants stay the float words they are printed as; nothing here evaluates them, and no law beyond
  the commutative monoid of addition is used, so nothing here needs the inputs finite.

  Two regroupings of a finite sum close the file: 128 consecutive blocks of 2048 samples are all 262144 samples,
  and 42 lanes are the 21 x-lanes followed by the 21 y-lanes.
-/
import Idealize.ShloMosaic.PureOps.Ideal
import Idealize.ShloMosaic.PureOps.Ideal.Laws

noncomputable section

open scoped BigOperators

namespace Reproj

open Idealize.ShloMosaic

/-- The focal length and the principal point's x, 512, as the f32 word both programs print. -/
abbrev f512 : EReal := Ideal.ofBits .f32 0x44000000#32
/-- The principal point's y, 288, as the f32 word both programs print. -/
abbrev f288 : EReal := Ideal.ofBits .f32 0x43900000#32

section Sample

variable (pose : Fin 3 → Fin 21 → EReal) (K : Fin 3 → Fin 3 → EReal)
  (b : Fin 2 → Fin 21 → EReal) (r : Fin 3 → Fin 3 → EReal) (c : Fin 3 → EReal)

/-- Joint `j` along world axis `l`, relative to the drone. -/
def P (l : Fin 3) (j : Fin 21) : EReal := pose l j - c l

/-- Row `l` of the drone's rotation times the camera rotation, at camera axis `i`. -/
def A (l i : Fin 3) : EReal := ∑ k : Fin 3, r l k * K k i

/-- Joint `j` in the camera frame, along camera axis `i`: the sum over the world axes, written out. -/
def cam (i : Fin 3) (j : Fin 21) : EReal :=
  A K r 0 i * P pose c 0 j + A K r 1 i * P pose c 1 j + A K r 2 i * P pose c 2 j

/-- The projected x of joint `j`. -/
def px (j : Fin 21) : EReal := Ideal.div (f512 * cam pose K r c 0 j) (cam pose K r c 2 j) + f512

/-- The projected y of joint `j`. -/
def py (j : Fin 21) : EReal := Ideal.div (f512 * cam pose K r c 1 j) (cam pose K r c 2 j) + f288

/-- The squared x error of joint `j`. -/
def sqX (j : Fin 21) : EReal := (px pose K r c j - b 0 j) * (px pose K r c j - b 0 j)

/-- The squared y error of joint `j`. -/
def sqY (j : Fin 21) : EReal := (py pose K r c j - b 1 j) * (py pose K r c j - b 1 j)

/-- The sample's squared error: over the joints, x then y. -/
def rowTot : EReal := ∑ j : Fin 21, sqX pose K b r c j + ∑ j : Fin 21, sqY pose K b r c j

end Sample

/-- The total squared reprojection error of 262144 samples. -/
def total (pose : Fin 3 → Fin 21 → EReal) (bone : Fin 262144 → Fin 2 → Fin 21 → EReal)
    (R : Fin 262144 → Fin 3 → Fin 3 → EReal) (C : Fin 262144 → Fin 3 → EReal) (K : Fin 3 → Fin 3 → EReal) : EReal :=
  ∑ n : Fin 262144, rowTot pose K (bone n) (R n) (C n)

/-! ## Two regroupings -/

/-- 128 consecutive blocks of 2048 are the first 262144 naturals. -/
theorem sum_blocks {M : Type*} [AddCommMonoid M] (f : ℕ → M) :
    ∑ t ∈ Finset.range 128, ∑ r : Fin 2048, f (2048 * t + r.val) = ∑ n : Fin 262144, f n.val := by
  rw [Finset.sum_range (fun t => ∑ r : Fin 2048, f (2048 * t + r.val))]
  rw [← Fintype.sum_prod_type']
  have h := Equiv.sum_comp (finProdFinEquiv (m := 128) (n := 2048)) (fun n : Fin (128 * 2048) => f n.val)
  refine Eq.trans (Finset.sum_congr rfl fun x _ => ?_) h
  show f (2048 * x.1.val + x.2.val) = f (x.2.val + 2048 * x.1.val)
  rw [Nat.add_comm]

/-- 42 lanes are 21 lanes followed by 21 more. -/
theorem sum_lanes {M : Type*} [AddCommMonoid M] (g : Fin 42 → M) :
    ∑ l : Fin 42, g l = ∑ j : Fin 21, g (Fin.castAdd 21 j) + ∑ j : Fin 21, g (Fin.natAdd 21 j) :=
  Fin.sum_univ_add (a := 21) (b := 21) g

end Reproj

end
-- ==== Proof.LibColumn.lean ====
/-
  Three layout operations on a column, each read at an index by its coordinates: a column `[a, 1]` broadcast
  along its unit axis to `[a, b]` reads the column's row; a vector `[a]` cast to the column `[a, 1]` reads the
  vector at the row; and any array cast to a shape of the same extents is itself. Together they are what a
  row-wise reduction kept as a column (`sum(axis = 1, keepdims = True)`) and a per-row factor spread over a
  row's lanes need. General in the extents and the element type.
-/
import Idealize.ShloMosaic.Lib.ValueIdx
import Idealize.ShloMosaic.Lib.ValueLayout
import Idealize.ShloMosaic.Lib.Pipeline.Value

noncomputable section

namespace Idealize.ShloMosaic.ValueIdx

variable {α : Type}

/-- A column `[a, 1]` broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx

end
-- ==== Proof.KPay.lean ====
/-
  The kernel body's arithmetic at the extended reals, read index by index. A block is 2048 samples: row `row` of
  the three per-sample blocks is one sample's drone rotation (nine lanes, a 3×3 matrix row by row), drone centre
  (three lanes) and observed joints (42 lanes: 21 x-lanes, then 21 y-lanes); the pose and the camera rotation are
  whole. Each payload of the body, read at a row and a lane, is the matching quantity of the sample in that row,
  and the body's last payload, read at the accumulator's one index, is the accumulator plus the sum over the rows
  of their samples' squared errors.
-/
import proofs.«166337_j45707041964540_1_alg».proof.Proof.Gen.KernelIdeal.Skeleton
import proofs.«166337_j45707041964540_1_alg».proof.Proof.Spec
import proofs.«166337_j45707041964540_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Pay

open Cert.KernelIdeal Cert.KernelIdeal.Gen

variable (x0 : FVec Ideal S2048x9 .f32) (x1 : FVec Ideal S2048x3 .f32) (x2 : FVec Ideal S2048x42 .f32)
  (x3 : FVec Ideal S3x21 .f32) (x4 : FVec Ideal S3x3 .f32) (row : Fin 2048)

/-- The pose block by coordinates. -/
abbrev poseB : Fin 3 → Fin 21 → EReal := fun l j => x3 (ix2 l j)
/-- The camera rotation block by coordinates. -/
abbrev camB : Fin 3 → Fin 3 → EReal := fun k i => x4 (ix2 k i)
/-- Row `row` of the centres block: the sample's drone centre. -/
abbrev cB : Fin 3 → EReal := fun l => x1 (ix2 row l)
/-- Lane `3 l + k` of nine: entry (l, k) of a 3×3 matrix stored row by row. -/
abbrev lane9 (l k : Fin 3) : Fin 9 := ⟨3 * l.val + k.val, by have := l.isLt; have := k.isLt; omega⟩
/-- Lane `21 cc + j` of 42: joint `j` of image axis `cc`, x-lanes first. -/
abbrev lane42 (cc : Fin 2) (j : Fin 21) : Fin 42 := ⟨21 * cc.val + j.val, by have := cc.isLt; have := j.isLt; omega⟩
/-- Row `row` of the rotations block, its nine lanes as 3×3: the sample's drone rotation. -/
abbrev rB : Fin 3 → Fin 3 → EReal := fun l k => x0 (ix2 row (lane9 l k))
/-- Row `row` of the observed-joints block, its 42 lanes as 2×21: the sample's observed joints. -/
abbrev bB : Fin 2 → Fin 21 → EReal := fun cc j => x2 (ix2 row (lane42 cc j))

/-! ## The joints relative to the drone, one world axis at a time -/

theorem pay6_apply (j : Fin 21) : k0_pay6 (F := Ideal) x1 x3 (ix2 row j) = Reproj.P (poseB x3) (cB x1 row) 0 j := by
  unfold k0_pay6 k0_pay4 Reproj.P
  refine (subf_apply _ _ _).trans ?_
  rw [broadcastTo_1b_ab_apply, broadcastTo_a1_ab_apply, slice2_axis0_apply 0 x3 _ (0 : Fin 1) j (0 : Fin 3) rfl,
    slice2_axis1_apply 0 _ _ row (0 : Fin 1) (0 : Fin 3) rfl, shapeCast_self]

theorem pay7_apply (j : Fin 21) : k0_pay7 (F := Ideal) x1 x3 (ix2 row j) = Reproj.P (poseB x3) (cB x1 row) 1 j := by
  unfold k0_pay7 k0_pay4 Reproj.P
  refine (subf_apply _ _ _).trans ?_
  rw [broadcastTo_1b_ab_apply, broadcastTo_a1_ab_apply, slice2_axis0_apply 1 x3 _ (0 : Fin 1) j (1 : Fin 3) rfl,
    slice2_axis1_apply 1 _ _ row (0 : Fin 1) (1 : Fin 3) rfl, shapeCast_self]

theorem pay8_apply (j : Fin 21) : k0_pay8 (F := Ideal) x1 x3 (ix2 row j) = Reproj.P (poseB x3) (cB x1 row) 2 j := by
  unfold k0_pay8 k0_pay4 Reproj.P
  refine (subf_apply _ _ _).trans ?_
  rw [broadcastTo_1b_ab_apply, broadcastTo_a1_ab_apply, slice2_axis0_apply 2 x3 _ (0 : Fin 1) j (2 : Fin 3) rfl,
    slice2_axis1_apply 2 _ _ row (0 : Fin 1) (2 : Fin 3) rfl, shapeCast_self]

/-! ## The composed rotation, one drone row at a time -/

/-- A [2048, 3] by [3, 3] product into a zero accumulator, at (row, i): the sum over the shared axis. -/
theorem mm_apply (lhs : FVec Ideal S2048x3 .f32) (rhs : FVec Ideal S3x3 .f32) (i : Fin 3) :
    matmul (F := Ideal) dot_S2048x3_S3x3_S2048x3_1_0_0_1_n_n none lhs rhs (constant S2048x3 .f32 0x00000000#32) (ix2 row i)
      = ∑ k : Fin 3, lhs (ix2 row k) * rhs (ix2 k i) := by
  refine (Ideal.matmul_constant_zero_apply _ _ _ _ _).trans ?_
  rw [← Equiv.sum_comp (contrEquiv1 dot_S2048x3_S3x3_S2048x3_1_0_0_1_n_n 3 rfl rfl).symm]
  refine Finset.sum_congr rfl fun k _ => ?_
  congr 2
  · funext a
    match a with
    | ⟨0, _⟩ => exact Fin.ext rfl
    | ⟨1, _⟩ => exact Fin.ext ((DotDims.lhsIdx_val_of_single _ rfl _ _).trans (contrEquiv1_symm_val _ 3 rfl rfl k))
  · funext a
    match a with
    | ⟨0, _⟩ => exact Fin.ext ((DotDims.rhsIdx_val_of_single _ rfl _ _).trans (contrEquiv1_symm_val _ 3 rfl rfl k))
    | ⟨1, _⟩ => exact Fin.ext rfl

theorem pay9_apply (i : Fin 3) : k0_pay9 (F := Ideal) x0 x4 (ix2 row i) = Reproj.A (camB x4) (rB x0 row) 0 i := by
  unfold k0_pay9 k0_pay3 Reproj.A
  refine (mm_apply row _ _ i).trans (Finset.sum_congr rfl fun k _ => ?_)
  rw [slice2_axis1_apply 0 _ _ row k (lane9 0 k) (by show 3 * 0 + k.val = 0 + k.val; omega), shapeCast_self]

theorem pay10_apply (i : Fin 3) : k0_pay10 (F := Ideal) x0 x4 (ix2 row i) = Reproj.A (camB x4) (rB x0 row) 1 i := by
  unfold k0_pay10 k0_pay3 Reproj.A
  refine (mm_apply row _ _ i).trans (Finset.sum_congr rfl fun k _ => ?_)
  rw [slice2_axis1_apply 3 _ _ row k (lane9 1 k) (by show 3 * 1 + k.val = 3 + k.val; omega), shapeCast_self]

theorem pay11_apply (i : Fin 3) : k0_pay11 (F := Ideal) x0 x4 (ix2 row i) = Reproj.A (camB x4) (rB x0 row) 2 i := by
  unfold k0_pay11 k0_pay3 Reproj.A
  refine (mm_apply row _ _ i).trans (Finset.sum_congr rfl fun k _ => ?_)
  rw [slice2_axis1_apply 6 _ _ row k (lane9 2 k) (by show 3 * 2 + k.val = 6 + k.val; omega), shapeCast_self]

/-! ## The joints in the camera frame -/

/-- Column `o` of a [2048, 3] array spread over a row's 21 lanes reads, at (row, j), the array at (row, o). -/
theorem col_apply (v : FVec Ideal S2048x3 .f32) (o : ℕ) (h : S2048x3.Slices ![0, o] S2048x1) (h' : S2048x1.Broadcasts S2048x21)
    (j : Fin 21) (i : Fin 3) (hi : i.val = o + (0 : Fin 1).val) :
    broadcastTo S2048x21 (extractStridedSlice S2048x1 ![0, o] v h) h' (ix2 row j) = v (ix2 row i) := by
  rw [broadcastTo_a1_ab_apply, slice2_axis1_apply o v h row (0 : Fin 1) i hi]

/-- One camera axis: the three drone rows' column `o`, each times its world axis' joints, added first to last. -/
theorem camcol_apply (vA0 vA1 vA2 : FVec Ideal S2048x3 .f32) (vP0 vP1 vP2 : FVec Ideal S2048x21 .f32) (o : ℕ)
    (h : S2048x3.Slices ![0, o] S2048x1) (h' : S2048x1.Broadcasts S2048x21) (j : Fin 21) (i : Fin 3) (hi : i.val = o + (0 : Fin 1).val) :
    addf (addf (mulf (broadcastTo S2048x21 (extractStridedSlice S2048x1 ![0, o] vA0 h) h') vP0)
        (mulf (broadcastTo S2048x21 (extractStridedSlice S2048x1 ![0, o] vA1 h) h') vP1))
      (mulf (broadcastTo S2048x21 (extractStridedSlice S2048x1 ![0, o] vA2 h) h') vP2) (ix2 row j)
      = vA0 (ix2 row i) * vP0 (ix2 row j) + vA1 (ix2 row i) * vP1 (ix2 row j) + vA2 (ix2 row i) * vP2 (ix2 row j) := by
  rw [addf_apply, addf_apply, mulf_apply, mulf_apply, mulf_apply, col_apply row vA0 o h h' j i hi, col_apply row vA1 o h h' j i hi,
    col_apply row vA2 o h h' j i hi]

theorem pay12_apply (j : Fin 21) :
    k0_pay12 (F := Ideal) x0 x1 x3 x4 (ix2 row j) = Reproj.cam (poseB x3) (camB x4) (rB x0 row) (cB x1 row) 0 j := by
  unfold k0_pay12 Reproj.cam
  refine (camcol_apply row _ _ _ _ _ _ 0 _ _ j 0 rfl).trans ?_
  rw [pay9_apply, pay10_apply, pay11_apply, pay6_apply, pay7_apply, pay8_apply]

/-! ## The squared error, lane by lane, and its two reductions -/

section Error

variable {F : FTy → Type} [FloatOps F]

/-- One camera axis of the block: column `o` of each composed-rotation row, spread over the lanes, times that world
    axis' joints, added first to last. -/
def camAx (o : ℕ) (h : S2048x3.Slices ![0, o] S2048x1) (v15 v20 v25 : FVec F S2048x21 .f32) (v29 v30 v31 : FVec F S2048x3 .f32) :
    FVec F S2048x21 .f32 :=
  addf (addf (mulf (broadcastTo S2048x21 (extractStridedSlice S2048x1 ![0, o] v29 h) broadcasts_S2048x1_S2048x21) v15)
      (mulf (broadcastTo S2048x21 (extractStridedSlice S2048x1 ![0, o] v30 h) broadcasts_S2048x1_S2048x21) v20))
    (mulf (broadcastTo S2048x21 (extractStridedSlice S2048x1 ![0, o] v31 h) broadcasts_S2048x1_S2048x21) v25)

/-- The pinhole projection of the block: 512 times a camera axis over the depth, plus the principal point's word `w`. -/
def proj (w : BitVec 32) (num den : FVec F S2048x21 .f32) : FVec F S2048x21 .f32 :=
  addf (divf (mulf (broadcast S2048x21 (Scalar.ofBits .f32 0x44000000#32)) num) den) (broadcast S2048x21 (Scalar.ofBits .f32 w))

/-- The block's squared errors, [2048, 42]: the two projections side by side (x-lanes, then y-lanes), less the
    observed joints `v8`, squared. `v15 v20 v25` are the joints relative to the drone, one array per world axis,
    `v29 v30 v31` the composed rotation's rows, `v42` the camera-frame x. -/
def errSq (v8 : FVec F S2048x42 .f32) (v15 v20 v25 : FVec F S2048x21 .f32) (v29 v30 v31 : FVec F S2048x3 .f32)
    (v42 : FVec F S2048x21 .f32) : FVec F S2048x42 .f32 :=
  mulf
    (subf (concatenate S2048x42 1
        [⟨S2048x21, proj 0x44000000#32 v42 (camAx 2 slices_S2048x3_o0_2_S2048x1 v15 v20 v25 v29 v30 v31)⟩,
         ⟨S2048x21, proj 0x43900000#32 (camAx 1 slices_S2048x3_o0_1_S2048x1 v15 v20 v25 v29 v30 v31)
            (camAx 2 slices_S2048x3_o0_2_S2048x1 v15 v20 v25 v29 v30 v31)⟩]
        concatenates_S2048x21_S2048x21_S2048x42_d1) v8)
    (subf (concatenate S2048x42 1
        [⟨S2048x21, proj 0x44000000#32 v42 (camAx 2 slices_S2048x3_o0_2_S2048x1 v15 v20 v25 v29 v30 v31)⟩,
         ⟨S2048x21, proj 0x43900000#32 (camAx 1 slices_S2048x3_o0_1_S2048x1 v15 v20 v25 v29 v30 v31)
            (camAx 2 slices_S2048x3_o0_2_S2048x1 v15 v20 v25 v29 v30 v31)⟩]
        concatenates_S2048x21_S2048x21_S2048x42_d1) v8)

/-- The body's last payload is the accumulator plus the sum over rows of the sums over lanes of the squared errors. -/
theorem pay1_eq (v8 : FVec F S2048x42 .f32) (v15 v20 v25 : FVec F S2048x21 .f32)
    (v29 v30 v31 : FVec F S2048x3 .f32) (v42 : FVec F S2048x21 .f32) (v82 : Vec F S1x1 .f32) :
    k0_pay1 v8 v15 v20 v25 v29 v30 v31 v42 v82
      = addf (shapeCast S1x1 v82 shapeCasts_S1x1_S1x1)
          (shapeCast S1x1 (multiReduction .add [0] S1 (shapeCast S2048x1
            (multiReduction .add [1] S2048 (errSq v8 v15 v20 v25 v29 v30 v31 v42) 0x00000000#32 reduces_S2048x42_S2048 (.inl rfl) rfl)
            shapeCasts_S2048_S2048x1) 0x00000000#32 reduces_S2048x1_S1 (.inl rfl) rfl) shapeCasts_S1_S1x1) := rfl

end Error

/-- Those two reductions and the casts between them, at the accumulator's one index: a double sum. -/
theorem reduce_apply (E : FVec Ideal S2048x42 .f32) (acc : FVec Ideal S1x1 .f32) (y : S1x1.Idx) :
    addf (shapeCast S1x1 acc shapeCasts_S1x1_S1x1)
        (shapeCast S1x1 (multiReduction .add [0] S1 (shapeCast S2048x1
          (multiReduction .add [1] S2048 E 0x00000000#32 reduces_S2048x42_S2048 (.inl rfl) rfl)
          shapeCasts_S2048_S2048x1) 0x00000000#32 reduces_S2048x1_S1 (.inl rfl) rfl) shapeCasts_S1_S1x1) y
      = acc y + ∑ r : Fin 2048, ∑ l : Fin 42, E (ix2 r l) := by
  obtain ⟨u, w, rfl⟩ : ∃ (u w : Fin 1), y = ix2 u w := ⟨y 0, y 1, eq_ix2 y⟩
  rw [addf_apply, shapeCast_self, shapeCast_a_1a_apply]
  congr 1
  refine (Ideal.multiReduction_add_total _ _ reduces_S2048x1_S1 (fun b => by match b with | ⟨0, _⟩ => rfl) _ _ _).trans ?_
  rw [sum_idx2]
  refine Finset.sum_congr rfl fun r _ => ?_
  rw [Fin.sum_univ_one, shapeCast_a_a1_apply]
  refine (Ideal.multiReduction_add_single E _ reduces_S2048x42_S2048 _ _ (ix1 r)).trans ?_
  refine Finset.sum_congr rfl fun l _ => congrArg E (funext fun a => ?_)
  match a with
  | ⟨0, _⟩ => exact Fin.ext rfl
  | ⟨1, _⟩ => exact Fin.ext rfl

section Lanes

variable (v8 : FVec Ideal S2048x42 .f32) (v15 v20 v25 : FVec Ideal S2048x21 .f32) (v29 v30 v31 : FVec Ideal S2048x3 .f32)
  (v42 : FVec Ideal S2048x21 .f32)
  (pose : Fin 3 → Fin 21 → EReal) (K : Fin 3 → Fin 3 → EReal) (b : Fin 2 → Fin 21 → EReal) (r : Fin 3 → Fin 3 → EReal) (c : Fin 3 → EReal)
  (h8 : ∀ cc j, v8 (ix2 row (lane42 cc j)) = b cc j)
  (hP0 : ∀ j, v15 (ix2 row j) = Reproj.P pose c 0 j) (hP1 : ∀ j, v20 (ix2 row j) = Reproj.P pose c 1 j)
  (hP2 : ∀ j, v25 (ix2 row j) = Reproj.P pose c 2 j)
  (hA0 : ∀ i, v29 (ix2 row i) = Reproj.A K r 0 i) (hA1 : ∀ i, v30 (ix2 row i) = Reproj.A K r 1 i)
  (hA2 : ∀ i, v31 (ix2 row i) = Reproj.A K r 2 i)
  (hC0 : ∀ j, v42 (ix2 row j) = Reproj.cam pose K r c 0 j)

include hP0 hP1 hP2 hA0 hA1 hA2 in
/-- Camera axis `i` of the block at (row, j) is that axis of the row's sample. -/
theorem camAx_apply (o : ℕ) (h : S2048x3.Slices ![0, o] S2048x1) (i : Fin 3) (hi : i.val = o + (0 : Fin 1).val) (j : Fin 21) :
    camAx (F := Ideal) o h v15 v20 v25 v29 v30 v31 (ix2 row j) = Reproj.cam pose K r c i j := by
  unfold camAx Reproj.cam
  refine (camcol_apply row _ _ _ _ _ _ o _ _ j i hi).trans ?_
  rw [hA0, hA1, hA2, hP0, hP1, hP2]

/-- The projection at (row, j), by definition of the operations at the extended reals. -/
theorem proj_apply (w : BitVec 32) (num den : FVec Ideal S2048x21 .f32) (j : Fin 21) :
    proj (F := Ideal) w num den (ix2 row j)
      = Ideal.div (Ideal.ofBits .f32 0x44000000#32 * num (ix2 row j)) (den (ix2 row j)) + Ideal.ofBits .f32 w := rfl

include h8 hP0 hP1 hP2 hA0 hA1 hA2 hC0 in
/-- An x-lane of the block's squared errors is the sample's squared x error. -/
theorem errSq_x (j : Fin 21) :
    errSq (F := Ideal) v8 v15 v20 v25 v29 v30 v31 v42 (ix2 row (lane42 0 j)) = Reproj.sqX pose K b r c j := by
  have e : subf (concatenate S2048x42 1
        [⟨S2048x21, proj (F := Ideal) 0x44000000#32 v42 (camAx 2 slices_S2048x3_o0_2_S2048x1 v15 v20 v25 v29 v30 v31)⟩,
         ⟨S2048x21, proj 0x43900000#32 (camAx 1 slices_S2048x3_o0_1_S2048x1 v15 v20 v25 v29 v30 v31)
            (camAx 2 slices_S2048x3_o0_2_S2048x1 v15 v20 v25 v29 v30 v31)⟩]
        concatenates_S2048x21_S2048x21_S2048x42_d1) v8 (ix2 row (lane42 0 j)) = Reproj.px pose K r c j - b 0 j := by
    rw [subf_apply, h8, concatenate_pair_apply_left (s₁ := S2048x21) (s₂ := S2048x21) 1 _ _ _ (ix2 row (lane42 0 j)) rfl (ix2 row j) (fun bb => by
      match bb with
      | ⟨0, _⟩ => rfl
      | ⟨1, _⟩ => show j.val = 21 * 0 + j.val; omega)]
    rw [proj_apply, hC0, camAx_apply row v15 v20 v25 v29 v30 v31 pose K r c hP0 hP1 hP2 hA0 hA1 hA2 2 _ 2 rfl]
    rfl
  unfold errSq Reproj.sqX
  exact (mulf_apply _ _ _).trans (by rw [e])

include h8 hP0 hP1 hP2 hA0 hA1 hA2 in
/-- A y-lane of the block's squared errors is the sample's squared y error. -/
theorem errSq_y (j : Fin 21) :
    errSq (F := Ideal) v8 v15 v20 v25 v29 v30 v31 v42 (ix2 row (lane42 1 j)) = Reproj.sqY pose K b r c j := by
  have e : subf (concatenate S2048x42 1
        [⟨S2048x21, proj (F := Ideal) 0x44000000#32 v42 (camAx 2 slices_S2048x3_o0_2_S2048x1 v15 v20 v25 v29 v30 v31)⟩,
         ⟨S2048x21, proj 0x43900000#32 (camAx 1 slices_S2048x3_o0_1_S2048x1 v15 v20 v25 v29 v30 v31)
            (camAx 2 slices_S2048x3_o0_2_S2048x1 v15 v20 v25 v29 v30 v31)⟩]
        concatenates_S2048x21_S2048x21_S2048x42_d1) v8 (ix2 row (lane42 1 j)) = Reproj.py pose K r c j - b 1 j := by
    rw [subf_apply, h8, concatenate_pair_apply_right (s₁ := S2048x21) (s₂ := S2048x21) 1 _ _ _ (ix2 row (lane42 1 j)) rfl rfl (ix2 row j) (fun bb hb => by
      match bb with
      | ⟨0, _⟩ => rfl
      | ⟨1, _⟩ => exact absurd rfl hb) (by show j.val + 21 = 21 * 1 + j.val; omega)]
    rw [proj_apply, camAx_apply row v15 v20 v25 v29 v30 v31 pose K r c hP0 hP1 hP2 hA0 hA1 hA2 1 _ 1 rfl,
      camAx_apply row v15 v20 v25 v29 v30 v31 pose K r c hP0 hP1 hP2 hA0 hA1 hA2 2 _ 2 rfl]
    rfl
  unfold errSq Reproj.sqY
  exact (mulf_apply _ _ _).trans (by rw [e])

include h8 hP0 hP1 hP2 hA0 hA1 hA2 hC0 in
/-- A row's 42 squared errors add up to its sample's squared error. -/
theorem row_sum : ∑ l : Fin 42, errSq (F := Ideal) v8 v15 v20 v25 v29 v30 v31 v42 (ix2 row l) = Reproj.rowTot pose K b r c := by
  rw [Reproj.sum_lanes]
  unfold Reproj.rowTot
  congr 1
  · refine Finset.sum_congr rfl fun j _ => ?_
    rw [show Fin.castAdd 21 j = lane42 0 j from Fin.ext (by show j.val = 21 * 0 + j.val; omega)]
    exact errSq_x row v8 v15 v20 v25 v29 v30 v31 v42 pose K b r c h8 hP0 hP1 hP2 hA0 hA1 hA2 hC0 j
  · refine Finset.sum_congr rfl fun j _ => ?_
    rw [show Fin.natAdd 21 j = lane42 1 j from Fin.ext (by show 21 + j.val = 21 * 1 + j.val; omega)]
    exact errSq_y row v8 v15 v20 v25 v29 v30 v31 v42 pose K b r c h8 hP0 hP1 hP2 hA0 hA1 hA2 j

end Lanes

/-! ## One grid point -/

/-- One grid point's update of the accumulator, at its one index: the accumulator plus the block's samples' squared errors. -/
theorem step_apply (acc : FVec Ideal S1x1 .f32) (y : S1x1.Idx) :
    k0_pay1 (F := Ideal) (k0_pay5 x2) (k0_pay6 x1 x3) (k0_pay7 x1 x3) (k0_pay8 x1 x3) (k0_pay9 x0 x4) (k0_pay10 x0 x4)
        (k0_pay11 x0 x4) (k0_pay12 x0 x1 x3 x4) acc y
      = acc y + ∑ row : Fin 2048, Reproj.rowTot (poseB x3) (camB x4) (bB x2 row) (rB x0 row) (cB x1 row) := by
  rw [pay1_eq]
  refine (reduce_apply _ acc y).trans ?_
  congr 1
  refine Finset.sum_congr rfl fun row _ => ?_
  exact row_sum row _ _ _ _ _ _ _ _ (poseB x3) (camB x4) (bB x2 row) (rB x0 row) (cB x1 row)
    (fun cc j => by unfold k0_pay5; rw [shapeCast_self])
    (pay6_apply x1 x3 row) (pay7_apply x1 x3 row) (pay8_apply x1 x3 row)
    (pay9_apply x0 x4 row) (pay10_apply x0 x4 row) (pay11_apply x0 x4 row) (pay12_apply x0 x1 x3 x4 row)

end Cert.KernelIdeal.Pay

end
-- ==== Proof.KValue.lean ====
/-
  The kernel's accumulated total, at the extended reals. Block `t` of a per-sample window is rows 2048 t … 2048 t + 2047
  of its array, and the three per-sample arrays are the arguments with their trailing axes merged, so row `row` of
  block `t` is sample 2048 t + row of the arguments; the pose and the camera rotation are read whole at every point.
  Hence one grid point adds its 2048 samples' squared errors to the accumulator, the accumulator after point `n` is
  the zero word plus the squared errors of the first 2048 (n + 1) samples — only the associativity of addition is
  used —, and after the last point it is the zero word plus the total over all 262144 samples.
-/
import proofs.«166337_j45707041964540_1_alg».proof.Proof.KRun
import proofs.«166337_j45707041964540_1_alg».proof.Proof.KPay
import Idealize.ShloMosaic.Lib.ValueIdx
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Body Cert.KernelIdeal.KRun

variable {F : FTy → Type} [FloatOps F]
variable (m : (ℓ : Loc nD τ sig) → Buf (Elt F) ℓ) (c : Dev nD)

open Cert.KernelIdeal.Pay

/-! ## A window's block at a grid point, read in its array -/

/-- The three per-sample windows move one block of 2048 rows per grid point and never along the lanes. -/
theorem idx_rows : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0))

/-- The pose's and the camera rotation's windows never move. -/
theorem idx_whole : ∀ t : Fin cfg0.N, (win0_3.index t 0 = 0 ∧ win0_3.index t 1 = 0) ∧ (win0_4.index t 0 = 0 ∧ win0_4.index t 1 = 0) :=
  (by decide +kernel : ∀ t : Fin grid0.N, (win0_3.index t 0 = 0 ∧ win0_3.index t 1 = 0) ∧ (win0_4.index t 0 = 0 ∧ win0_4.index t 1 = 0))

/-- Row `row` of block `t` is global row `2048 t + row`. -/
abbrev gRow (t : Fin cfg0.N) (row : Fin 2048) : Fin 262144 :=
  ⟨2048 * t.val + row.val, by have := lt_of_lt_of_eq t.isLt (show cfg0.N = 128 from N_0); have := row.isLt; omega⟩

theorem blk0 (t : Fin cfg0.N) (row : Fin 2048) (q : Fin 9) :
    (iblk m c 0 t : Vec F S2048x9 .f32) (ix2 row q) = (V m c main_v30 : (⟨S262144x9, .f32⟩ : BufTy).Contents (Elt F)) (ix2 (gRow t row) q) := by
  unfold iblk
  rw [View.read_apply]
  show V m c main_v30 _ = V m c main_v30 _
  congr 1
  funext a
  apply Fin.ext
  match a with
  | ⟨0, _⟩ => show win0_0.index t 0 * 2048 + 1 * row.val = 2048 * t.val + row.val; rw [(idx_rows t).1.1]; omega
  | ⟨1, _⟩ => show win0_0.index t 1 * 9 + 1 * q.val = q.val; rw [(idx_rows t).1.2]; omega

theorem blk1 (t : Fin cfg0.N) (row : Fin 2048) (q : Fin 3) :
    (iblk m c 1 t : Vec F S2048x3 .f32) (ix2 row q) = (V m c main_v31 : (⟨S262144x3, .f32⟩ : BufTy).Contents (Elt F)) (ix2 (gRow t row) q) := by
  unfold iblk
  rw [View.read_apply]
  show V m c main_v31 _ = V m c main_v31 _
  congr 1
  funext a
  apply Fin.ext
  match a with
  | ⟨0, _⟩ => show win0_1.index t 0 * 2048 + 1 * row.val = 2048 * t.val + row.val; rw [(idx_rows t).2.1.1]; omega
  | ⟨1, _⟩ => show win0_1.index t 1 * 3 + 1 * q.val = q.val; rw [(idx_rows t).2.1.2]; omega

theorem blk2 (t : Fin cfg0.N) (row : Fin 2048) (q : Fin 42) :
    (iblk m c 2 t : Vec F S2048x42 .f32) (ix2 row q) = (V m c main_v32 : (⟨S262144x42, .f32⟩ : BufTy).Contents (Elt F)) (ix2 (gRow t row) q) := by
  unfold iblk
  rw [View.read_apply]
  show V m c main_v32 _ = V m c main_v32 _
  congr 1
  funext a
  apply Fin.ext
  match a with
  | ⟨0, _⟩ => show win0_2.index t 0 * 2048 + 1 * row.val = 2048 * t.val + row.val; rw [(idx_rows t).2.2.1]; omega
  | ⟨1, _⟩ => show win0_2.index t 1 * 42 + 1 * q.val = q.val; rw [(idx_rows t).2.2.2]; omega

theorem blk3 (t : Fin cfg0.N) (l : Fin 3) (j : Fin 21) :
    (iblk m c 3 t : Vec F S3x21 .f32) (ix2 l j) = m ((c : Thread nD τ).loc main_arg0) (ix2 l j) := by
  unfold iblk
  rw [View.read_apply]
  show V m c main_arg0 _ = _
  rw [V_main_arg0]
  congr 1
  funext a
  apply Fin.ext
  match a with
  | ⟨0, _⟩ => show win0_3.index t 0 * 3 + 1 * l.val = l.val; rw [(idx_whole t).1.1]; omega
  | ⟨1, _⟩ => show win0_3.index t 1 * 21 + 1 * j.val = j.val; rw [(idx_whole t).1.2]; omega

theorem blk4 (t : Fin cfg0.N) (k i : Fin 3) :
    (iblk m c 4 t : Vec F S3x3 .f32) (ix2 k i) = m ((c : Thread nD τ).loc main_arg4) (ix2 k i) := by
  unfold iblk
  rw [View.read_apply]
  show V m c main_arg4 _ = _
  rw [V_main_arg4]
  congr 1
  funext a
  apply Fin.ext
  match a with
  | ⟨0, _⟩ => show win0_4.index t 0 * 3 + 1 * k.val = k.val; rw [(idx_whole t).2.1]; omega
  | ⟨1, _⟩ => show win0_4.index t 1 * 3 + 1 * i.val = i.val; rw [(idx_whole t).2.2]; omega

/-! ## The merged axes read back: the same row-major position -/

theorem g30 (n : Fin 262144) (l k : Fin 3) :
    (V m c main_v30 : (⟨S262144x9, .f32⟩ : BufTy).Contents (Elt F)) (ix2 n (lane9 l k)) = m ((c : Thread nD τ).loc main_arg2) (ix3 n l k) := by
  rw [V_v30]
  exact shapeCast_apply _ _ _ (ix3 n l k) (by
    rw [Shape.rowMajor_val_three, Shape.rowMajor_val_two]
    show (n.val * 3 + l.val) * 3 + k.val = n.val * 9 + (3 * l.val + k.val)
    omega)

theorem g31 (n : Fin 262144) (l : Fin 3) :
    (V m c main_v31 : (⟨S262144x3, .f32⟩ : BufTy).Contents (Elt F)) (ix2 n l) = m ((c : Thread nD τ).loc main_arg3) (ix3 n l (0 : Fin 1)) := by
  rw [V_v31]
  exact shapeCast_apply _ _ _ (ix3 n l (0 : Fin 1)) (by
    rw [Shape.rowMajor_val_three, Shape.rowMajor_val_two]
    show (n.val * 3 + l.val) * 1 + 0 = n.val * 3 + l.val
    omega)

theorem g32 (n : Fin 262144) (cc : Fin 2) (j : Fin 21) :
    (V m c main_v32 : (⟨S262144x42, .f32⟩ : BufTy).Contents (Elt F)) (ix2 n (lane42 cc j)) = m ((c : Thread nD τ).loc main_arg1) (ix3 n cc j) := by
  rw [V_v32]
  exact shapeCast_apply _ _ _ (ix3 n cc j) (by
    rw [Shape.rowMajor_val_three, Shape.rowMajor_val_two]
    show (n.val * 2 + cc.val) * 21 + j.val = n.val * 42 + (21 * cc.val + j.val)
    omega)

end Cert.KernelIdeal.KValue

/-! ## At the extended reals -/

namespace Cert.KernelIdeal.KValue

open Cert.KernelIdeal Cert.KernelIdeal.Gen Cert.KernelIdeal.Body Cert.KernelIdeal.KRun Cert.KernelIdeal.Pay

variable (m : (ℓ : Loc nD τ sig) → Buf (Elt Ideal) ℓ) (c : Dev nD)

/-- The arguments by coordinates. -/
abbrev poseG : Fin 3 → Fin 21 → EReal := fun l j => m ((c : Thread nD τ).loc main_arg0) (ix2 l j)
abbrev boneG : Fin 262144 → Fin 2 → Fin 21 → EReal := fun n cc j => m ((c : Thread nD τ).loc main_arg1) (ix3 n cc j)
abbrev rotG : Fin 262144 → Fin 3 → Fin 3 → EReal := fun n l k => m ((c : Thread nD τ).loc main_arg2) (ix3 n l k)
abbrev cenG : Fin 262144 → Fin 3 → EReal := fun n l => m ((c : Thread nD τ).loc main_arg3) (ix3 n l (0 : Fin 1))
abbrev camG : Fin 3 → Fin 3 → EReal := fun k i => m ((c : Thread nD τ).loc main_arg4) (ix2 k i)

/-- Sample `n`'s squared error, as a function of a natural number (zero past the last sample). -/
def sampleTot (n : ℕ) : EReal :=
  if h : n < 262144 then Reproj.rowTot (poseG m c) (camG m c) (boneG m c ⟨n, h⟩) (rotG m c ⟨n, h⟩) (cenG m c ⟨n, h⟩) else 0

/-- Row `row` of block `t` carries sample 2048 t + row. -/
theorem rowTot_blk (t : Fin cfg0.N) (row : Fin 2048) :
    Reproj.rowTot (poseB (iblk m c 3 t)) (camB (iblk m c 4 t)) (bB (iblk m c 2 t) row) (rB (iblk m c 0 t) row) (cB (iblk m c 1 t) row)
      = sampleTot m c (2048 * t.val + row.val) := by
  have e3 : poseB (iblk m c 3 t) = poseG m c := funext fun l => funext fun j => blk3 m c t l j
  have e4 : camB (iblk m c 4 t) = camG m c := funext fun k => funext fun i => blk4 m c t k i
  have e2 : bB (iblk m c 2 t) row = boneG m c (gRow t row) :=
    funext fun cc => funext fun j => (blk2 m c t row (lane42 cc j)).trans (g32 m c (gRow t row) cc j)
  have e0 : rB (iblk m c 0 t) row = rotG m c (gRow t row) :=
    funext fun l => funext fun k => (blk0 m c t row (lane9 l k)).trans (g30 m c (gRow t row) l k)
  have e1 : cB (iblk m c 1 t) row = cenG m c (gRow t row) :=
    funext fun l => (blk1 m c t row l).trans (g31 m c (gRow t row) l)
  rw [e3, e4, e2, e0, e1]
  unfold sampleTot
  rw [dif_pos (gRow t row).isLt]

/-- The accumulator after point `n`: the zero word plus the squared errors of the samples of blocks 0 … n. -/
theorem chain_eq : ∀ (n : ℕ) (h : n < cfg0.N) (y : S1x1.Idx),
    chain m c n h y = Ideal.ofBits .f32 0x00000000#32 + ∑ t ∈ Finset.range (n + 1), ∑ row : Fin 2048, sampleTot m c (2048 * t + row.val)
  | 0, h, y => by
    refine (Pay.step_apply (iblk m c 0 ⟨0, h⟩) (iblk m c 1 ⟨0, h⟩) (iblk m c 2 ⟨0, h⟩) (iblk m c 3 ⟨0, h⟩) (iblk m c 4 ⟨0, h⟩)
      (k0_pay2 (F := Ideal)) y).trans ?_
    rw [Finset.sum_range_one]
    refine congrArg₂ (· + ·) rfl ?_
    exact Finset.sum_congr rfl fun row _ => rowTot_blk m c ⟨0, h⟩ row
  | n + 1, h, y => by
    refine (Pay.step_apply (iblk m c 0 ⟨n + 1, h⟩) (iblk m c 1 ⟨n + 1, h⟩) (iblk m c 2 ⟨n + 1, h⟩) (iblk m c 3 ⟨n + 1, h⟩)
      (iblk m c 4 ⟨n + 1, h⟩) (chain m c n (Nat.lt_of_succ_lt h)) y).trans ?_
    rw [chain_eq n (Nat.lt_of_succ_lt h) y, Finset.sum_range_succ _ (n + 1), add_assoc]
    refine congrArg₂ (· + ·) rfl (congrArg₂ (· + ·) rfl ?_)
    exact Finset.sum_congr rfl fun row _ => rowTot_blk m c ⟨n + 1, h⟩ row

/-- The accumulator's array after the region: the zero word plus the total squared error of the arguments. -/
theorem result_eq : (result m c : S1x1.Idx → EReal)
    = fun _ => Ideal.ofBits .f32 0x00000000#32 + Reproj.total (poseG m c) (boneG m c) (rotG m c) (cenG m c) (camG m c) := by
  funext y
  refine (chain_eq m c 127 tLast.isLt y).trans (congrArg₂ (· + ·) rfl ?_)
  rw [Reproj.sum_blocks (sampleTot m c)]
  unfold Reproj.total
  refine Finset.sum_congr rfl fun n _ => ?_
  unfold sampleTot
  rw [dif_pos n.isLt]

end Cert.KernelIdeal.KValue

end
-- ==== Proof.RefRun.lean ====
/-
  The reference's host program as the list of its 87 operations, and its run read back: from any memory with zero
  counters every weakly fair execution terminates with the result buffer holding `out` of the five arguments' launch
  contents, the arguments unchanged.

  `out` is stated through two named terms: `sym`, a function of the pose alone (operations %c … %29: four gathers of
  pose columns, their differences' squared lengths, a mean), and `sq`, the squared reprojection error at every
  (sample, image axis, joint) (operations %30 … %56), itself built from the named steps `rel`, `rot`, `cam`,
  `camRow`, `proj` and `err` below. The result is  1.0 * sym + 0.5 * ((0 + Σ sq) / 11010048), reshaped to [1].
-/
import proofs.«166337_j45707041964540_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 87 operations, in order. -/
abbrev ops : List (HloOp τ sig (Elt F)) :=
  [ nullary main_c (fun i => lit0 (S6.rowMajor i)),
    nullary main_c_0 (constantI S6 1 0#1),
    nullary main_c_1 (fun i => lit1 (S6.rowMajor i)),
    nullary main_c_2 (constantI S6 1 0#1),
    nullary main_c_3 (fun i => lit2 (S6.rowMajor i)),
    nullary main_c_4 (constantI S6 1 0#1),
    nullary main_c_5 (fun i => lit3 (S6.rowMajor i)),
    nullary main_c_6 (constantI S6 1 0#1),
    nullary main_c_7 (constantI S_ 32 21#32),
    unary main_c_7 main_v0 (broadcastInDim S6 ![] bcast_S_S6 : (⟨S_, .i32⟩ : BufTy).Contents (Elt F) → (⟨S6, .i32⟩ : BufTy).Contents (Elt F)),
    binary main_c main_v0 main_v1 (addi : (⟨S6, .i32⟩ : BufTy).Contents (Elt F) → (⟨S6, .i32⟩ : BufTy).Contents (Elt F) → (⟨S6, .i32⟩ : BufTy).Contents (Elt F)),
    ternary main_c_0 main_v1 main_c main_v2 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v2 main_v3 (broadcastInDim S6x1 ![0] bcast_S6_S6x1_0 : (⟨S6, .i32⟩ : BufTy).Contents (Elt F) → (⟨S6x1, .i32⟩ : BufTy).Contents (Elt F)),
    binary main_arg0 main_v3 main_v4 ((fun x i => Host.gather gather_S3x21_S6x1_S3x6_0_1_n_n_1_1_31 x i) : (⟨S3x21, .f32⟩ : BufTy).Contents (Elt F) → (⟨S6x1, .i32⟩ : BufTy).Contents (Elt F) → (⟨S3x6, .f32⟩ : BufTy).Contents (Elt F)),
    nullary main_c_8 (constantI S_ 32 21#32),
    unary main_c_8 main_v5 (broadcastInDim S6 ![] bcast_S_S6 : (⟨S_, .i32⟩ : BufTy).Contents (Elt F) → (⟨S6, .i32⟩ : BufTy).Contents (Elt F)),
    binary main_c_1 main_v5 main_v6 (addi : (⟨S6, .i32⟩ : BufTy).Contents (Elt F) → (⟨S6, .i32⟩ : BufTy).Contents (Elt F) → (⟨S6, .i32⟩ : BufTy).Contents (Elt F)),
    ternary main_c_2 main_v6 main_c_1 main_v7 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v7 main_v8 (broadcastInDim S6x1 ![0] bcast_S6_S6x1_0 : (⟨S6, .i32⟩ : BufTy).Contents (Elt F) → (⟨S6x1, .i32⟩ : BufTy).Contents (Elt F)),
    binary main_arg0 main_v8 main_v9 ((fun x i => Host.gather gather_S3x21_S6x1_S3x6_0_1_n_n_1_1_31 x i) : (⟨S3x21, .f32⟩ : BufTy).Contents (Elt F) → (⟨S6x1, .i32⟩ : BufTy).Contents (Elt F) → (⟨S3x6, .f32⟩ : BufTy).Contents (Elt F)),
    binary main_v4 main_v9 main_v10 (subf : (⟨S3x6, .f32⟩ : BufTy).Contents (Elt F) → (⟨S3x6, .f32⟩ : BufTy).Contents (Elt F) → (⟨S3x6, .f32⟩ : BufTy).Contents (Elt F)),
    nullary main_c_9 (constantI S_ 32 21#32),
    unary main_c_9 main_v11 (broadcastInDim S6 ![] bcast_S_S6 : (⟨S_, .i32⟩ : BufTy).Contents (Elt F) → (⟨S6, .i32⟩ : BufTy).Contents (Elt F)),
    binary main_c_3 main_v11 main_v12 (addi : (⟨S6, .i32⟩ : BufTy).Contents (Elt F) → (⟨S6, .i32⟩ : BufTy).Contents (Elt F) → (⟨S6, .i32⟩ : BufTy).Contents (Elt F)),
    ternary main_c_4 main_v12 main_c_3 main_v13 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v13 main_v14 (broadcastInDim S6x1 ![0] bcast_S6_S6x1_0 : (⟨S6, .i32⟩ : BufTy).Contents (Elt F) → (⟨S6x1, .i32⟩ : BufTy).Contents (Elt F)),
    binary main_arg0 main_v14 main_v15 ((fun x i => Host.gather gather_S3x21_S6x1_S3x6_0_1_n_n_1_1_31 x i) : (⟨S3x21, .f32⟩ : BufTy).Contents (Elt F) → (⟨S6x1, .i32⟩ : BufTy).Contents (Elt F) → (⟨S3x6, .f32⟩ : BufTy).Contents (Elt F)),
    nullary main_c_10 (constantI S_ 32 21#32),
    unary main_c_10 main_v16 (broadcastInDim S6 ![] bcast_S_S6 : (⟨S_, .i32⟩ : BufTy).Contents (Elt F) → (⟨S6, .i32⟩ : BufTy).Contents (Elt F)),
    binary main_c_5 main_v16 main_v17 (addi : (⟨S6, .i32⟩ : BufTy).Contents (Elt F) → (⟨S6, .i32⟩ : BufTy).Contents (Elt F) → (⟨S6, .i32⟩ : BufTy).Contents (Elt F)),
    ternary main_c_6 main_v17 main_c_5 main_v18 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v18 main_v19 (broadcastInDim S6x1 ![0] bcast_S6_S6x1_0 : (⟨S6, .i32⟩ : BufTy).Contents (Elt F) → (⟨S6x1, .i32⟩ : BufTy).Contents (Elt F)),
    binary main_arg0 main_v19 main_v20 ((fun x i => Host.gather gather_S3x21_S6x1_S3x6_0_1_n_n_1_1_31 x i) : (⟨S3x21, .f32⟩ : BufTy).Contents (Elt F) → (⟨S6x1, .i32⟩ : BufTy).Contents (Elt F) → (⟨S3x6, .f32⟩ : BufTy).Contents (Elt F)),
    binary main_v15 main_v20 main_v21 (subf : (⟨S3x6, .f32⟩ : BufTy).Contents (Elt F) → (⟨S3x6, .f32⟩ : BufTy).Contents (Elt F) → (⟨S3x6, .f32⟩ : BufTy).Contents (Elt F)),
    binary main_v10 main_v10 main_v22 (mulf : (⟨S3x6, .f32⟩ : BufTy).Contents (Elt F) → (⟨S3x6, .f32⟩ : BufTy).Contents (Elt F) → (⟨S3x6, .f32⟩ : BufTy).Contents (Elt F)),
    nullary main_cst (constant S_ .f32 0x00000000#32),
    binary main_v22 main_cst main_v23 ((fun x v => Host.reduceAdd x v reducesTo_S3x6_S6_d0 h_S_) : (⟨S3x6, .f32⟩ : BufTy).Contents (Elt F) → (⟨S_, .f32⟩ : BufTy).Contents (Elt F) → (⟨S6, .f32⟩ : BufTy).Contents (Elt F)),
    binary main_v21 main_v21 main_v24 (mulf : (⟨S3x6, .f32⟩ : BufTy).Contents (Elt F) → (⟨S3x6, .f32⟩ : BufTy).Contents (Elt F) → (⟨S3x6, .f32⟩ : BufTy).Contents (Elt F)),
    nullary main_cst_11 (constant S_ .f32 0x00000000#32),
    binary main_v24 main_cst_11 main_v25 ((fun x v => Host.reduceAdd x v reducesTo_S3x6_S6_d0 h_S_) : (⟨S3x6, .f32⟩ : BufTy).Contents (Elt F) → (⟨S_, .f32⟩ : BufTy).Contents (Elt F) → (⟨S6, .f32⟩ : BufTy).Contents (Elt F)),
    binary main_v23 main_v25 main_v26 (subf : (⟨S6, .f32⟩ : BufTy).Contents (Elt F) → (⟨S6, .f32⟩ : BufTy).Contents (Elt F) → (⟨S6, .f32⟩ : BufTy).Contents (Elt F)),
    binary main_v26 main_v26 main_v27 (mulf : (⟨S6, .f32⟩ : BufTy).Contents (Elt F) → (⟨S6, .f32⟩ : BufTy).Contents (Elt F) → (⟨S6, .f32⟩ : BufTy).Contents (Elt F)),
    nullary main_cst_12 (constant S_ .f32 0x00000000#32),
    binary main_v27 main_cst_12 main_v28 ((fun x v => Host.reduceAdd x v reducesTo_S6_S_d0 h_S_) : (⟨S6, .f32⟩ : BufTy).Contents (Elt F) → (⟨S_, .f32⟩ : BufTy).Contents (Elt F) → (⟨S_, .f32⟩ : BufTy).Contents (Elt F)),
    nullary main_cst_13 (constant S_ .f32 0x40C00000#32),
    binary main_v28 main_cst_13 main_v29 (Host.divf : (⟨S_, .f32⟩ : BufTy).Contents (Elt F) → (⟨S_, .f32⟩ : BufTy).Contents (Elt F) → (⟨S_, .f32⟩ : BufTy).Contents (Elt F)),
    unary main_arg0 main_v30 (broadcastInDim S1x3x21 ![1, 2] bcast_S3x21_S1x3x21_1_2 : (⟨S3x21, .f32⟩ : BufTy).Contents (Elt F) → (⟨S1x3x21, .f32⟩ : BufTy).Contents (Elt F)),
    unary main_v30 main_v31 (broadcastInDim S262144x3x21 ![0, 1, 2] bcast_S1x3x21_S262144x3x21_0_1_2 : (⟨S1x3x21, .f32⟩ : BufTy).Contents (Elt F) → (⟨S262144x3x21, .f32⟩ : BufTy).Contents (Elt F)),
    unary main_arg3 main_v32 (broadcastInDim S262144x3x21 ![0, 1, 2] bcast_S262144x3x1_S262144x3x21_0_1_2 : (⟨S262144x3x1, .f32⟩ : BufTy).Contents (Elt F) → (⟨S262144x3x21, .f32⟩ : BufTy).Contents (Elt F)),
    binary main_v31 main_v32 main_v33 (subf : (⟨S262144x3x21, .f32⟩ : BufTy).Contents (Elt F) → (⟨S262144x3x21, .f32⟩ : BufTy).Contents (Elt F) → (⟨S262144x3x21, .f32⟩ : BufTy).Contents (Elt F)),
    binary main_arg2 main_arg4 main_v34 ((fun l r => Host.dotGeneral dot_S262144x3x3_S3x3_S262144x3x3_2_0_01_1_n_n none l r) : (⟨S262144x3x3, .f32⟩ : BufTy).Contents (Elt F) → (⟨S3x3, .f32⟩ : BufTy).Contents (Elt F) → (⟨S262144x3x3, .f32⟩ : BufTy).Contents (Elt F)),
    binary main_v34 main_v33 main_v35 ((fun l r => Host.dotGeneral dot_S262144x3x3_S262144x3x21_S262144x3x21_1_1_2_2_0_0 none l r) : (⟨S262144x3x3, .f32⟩ : BufTy).Contents (Elt F) → (⟨S262144x3x21, .f32⟩ : BufTy).Contents (Elt F) → (⟨S262144x3x21, .f32⟩ : BufTy).Contents (Elt F)),
    unary main_v35 main_v36 ((extractStridedSlice S262144x1x21 ![0, 2, 0] · slices_S262144x3x21_S262144x1x21_0_2_0) : (⟨S262144x3x21, .f32⟩ : BufTy).Contents (Elt F) → (⟨S262144x1x21, .f32⟩ : BufTy).Contents (Elt F)),
    reshape main_v36 main_v37 rfl shapeCasts_S262144x1x21_S262144x21,
    unary main_v35 main_v38 ((extractStridedSlice S262144x1x21 ![0, 0, 0] · slices_S262144x3x21_S262144x1x21_0_0_0) : (⟨S262144x3x21, .f32⟩ : BufTy).Contents (Elt F) → (⟨S262144x1x21, .f32⟩ : BufTy).Contents (Elt F)),
    reshape main_v38 main_v39 rfl shapeCasts_S262144x1x21_S262144x21,
    nullary main_cst_14 (constant S_ .f32 0x44000000#32),
    unary main_cst_14 main_v40 (broadcastInDim S262144x21 ![] bcast_S_S262144x21 : (⟨S_, .f32⟩ : BufTy).Contents (Elt F) → (⟨S262144x21, .f32⟩ : BufTy).Contents (Elt F)),
    binary main_v40 main_v39 main_v41 (mulf : (⟨S262144x21, .f32⟩ : BufTy).Contents (Elt F) → (⟨S262144x21, .f32⟩ : BufTy).Contents (Elt F) → (⟨S262144x21, .f32⟩ : BufTy).Contents (Elt F)),
    binary main_v41 main_v37 main_v42 (Host.divf : (⟨S262144x21, .f32⟩ : BufTy).Contents (Elt F) → (⟨S262144x21, .f32⟩ : BufTy).Contents (Elt F) → (⟨S262144x21, .f32⟩ : BufTy).Contents (Elt F)),
    nullary main_cst_15 (constant S_ .f32 0x44000000#32),
    unary main_cst_15 main_v43 (broadcastInDim S262144x21 ![] bcast_S_S262144x21 : (⟨S_, .f32⟩ : BufTy).Contents (Elt F) → (⟨S262144x21, .f32⟩ : BufTy).Contents (Elt F)),
    binary main_v42 main_v43 main_v44 (addf : (⟨S262144x21, .f32⟩ : BufTy).Contents (Elt F) → (⟨S262144x21, .f32⟩ : BufTy).Contents (Elt F) → (⟨S262144x21, .f32⟩ : BufTy).Contents (Elt F)),
    unary main_v35 main_v45 ((extractStridedSlice S262144x1x21 ![0, 1, 0] · slices_S262144x3x21_S262144x1x21_0_1_0) : (⟨S262144x3x21, .f32⟩ : BufTy).Contents (Elt F) → (⟨S262144x1x21, .f32⟩ : BufTy).Contents (Elt F)),
    reshape main_v45 main_v46 rfl shapeCasts_S262144x1x21_S262144x21,
    nullary main_cst_16 (constant S_ .f32 0x44000000#32),
    unary main_cst_16 main_v47 (broadcastInDim S262144x21 ![] bcast_S_S262144x21 : (⟨S_, .f32⟩ : BufTy).Contents (Elt F) → (⟨S262144x21, .f32⟩ : BufTy).Contents (Elt F)),
    binary main_v47 main_v46 main_v48 (mulf : (⟨S262144x21, .f32⟩ : BufTy).Contents (Elt F) → (⟨S262144x21, .f32⟩ : BufTy).Contents (Elt F) → (⟨S262144x21, .f32⟩ : BufTy).Contents (Elt F)),
    binary main_v48 main_v37 main_v49 (Host.divf : (⟨S262144x21, .f32⟩ : BufTy).Contents (Elt F) → (⟨S262144x21, .f32⟩ : BufTy).Contents (Elt F) → (⟨S262144x21, .f32⟩ : BufTy).Contents (Elt F)),
    nullary main_cst_17 (constant S_ .f32 0x43900000#32),
    unary main_cst_17 main_v50 (broadcastInDim S262144x21 ![] bcast_S_S262144x21 : (⟨S_, .f32⟩ : BufTy).Contents (Elt F) → (⟨S262144x21, .f32⟩ : BufTy).Contents (Elt F)),
    binary main_v49 main_v50 main_v51 (addf : (⟨S262144x21, .f32⟩ : BufTy).Contents (Elt F) → (⟨S262144x21, .f32⟩ : BufTy).Contents (Elt F) → (⟨S262144x21, .f32⟩ : BufTy).Contents (Elt F)),
    unary main_v44 main_v52 (broadcastInDim S262144x1x21 ![0, 2] bcast_S262144x21_S262144x1x21_0_2 : (⟨S262144x21, .f32⟩ : BufTy).Contents (Elt F) → (⟨S262144x1x21, .f32⟩ : BufTy).Contents (Elt F)),
    unary main_v51 main_v53 (broadcastInDim S262144x1x21 ![0, 2] bcast_S262144x21_S262144x1x21_0_2 : (⟨S262144x21, .f32⟩ : BufTy).Contents (Elt F) → (⟨S262144x1x21, .f32⟩ : BufTy).Contents (Elt F)),
    binary main_v52 main_v53 main_v54 ((fun a b => concatenate S262144x2x21 1 [⟨S262144x1x21, a⟩, ⟨S262144x1x21, b⟩] concatenates_S262144x1x21_S262144x1x21_S262144x2x21_d1) : (⟨S262144x1x21, .f32⟩ : BufTy).Contents (Elt F) → (⟨S262144x1x21, .f32⟩ : BufTy).Contents (Elt F) → (⟨S262144x2x21, .f32⟩ : BufTy).Contents (Elt F)),
    binary main_v54 main_arg1 main_v55 (subf : (⟨S262144x2x21, .f32⟩ : BufTy).Contents (Elt F) → (⟨S262144x2x21, .f32⟩ : BufTy).Contents (Elt F) → (⟨S262144x2x21, .f32⟩ : BufTy).Contents (Elt F)),
    binary main_v55 main_v55 main_v56 (mulf : (⟨S262144x2x21, .f32⟩ : BufTy).Contents (Elt F) → (⟨S262144x2x21, .f32⟩ : BufTy).Contents (Elt F) → (⟨S262144x2x21, .f32⟩ : BufTy).Contents (Elt F)),
    nullary main_cst_18 (constant S_ .f32 0x00000000#32),
    binary main_v56 main_cst_18 main_v57 ((fun x v => Host.reduceAdd x v reducesTo_S262144x2x21_S_d0_1_2 h_S_) : (⟨S262144x2x21, .f32⟩ : BufTy).Contents (Elt F) → (⟨S_, .f32⟩ : BufTy).Contents (Elt F) → (⟨S_, .f32⟩ : BufTy).Contents (Elt F)),
    nullary main_cst_19 (constant S_ .f32 0x4B280000#32),
    binary main_v57 main_cst_19 main_v58 (Host.divf : (⟨S_, .f32⟩ : BufTy).Contents (Elt F) → (⟨S_, .f32⟩ : BufTy).Contents (Elt F) → (⟨S_, .f32⟩ : BufTy).Contents (Elt F)),
    nullary main_cst_20 (constant S_ .f32 0x3F800000#32),
    binary main_cst_20 main_v29 main_v59 (mulf : (⟨S_, .f32⟩ : BufTy).Contents (Elt F) → (⟨S_, .f32⟩ : BufTy).Contents (Elt F) → (⟨S_, .f32⟩ : BufTy).Contents (Elt F)),
    nullary main_cst_21 (constant S_ .f32 0x3F000000#32),
    binary main_cst_21 main_v58 main_v60 (mulf : (⟨S_, .f32⟩ : BufTy).Contents (Elt F) → (⟨S_, .f32⟩ : BufTy).Contents (Elt F) → (⟨S_, .f32⟩ : BufTy).Contents (Elt F)),
    binary main_v59 main_v60 main_v61 (addf : (⟨S_, .f32⟩ : BufTy).Contents (Elt F) → (⟨S_, .f32⟩ : BufTy).Contents (Elt F) → (⟨S_, .f32⟩ : BufTy).Contents (Elt F)),
    reshape main_v61 main_v62 rfl shapeCasts_S_S1 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., binary_bufs_sub .., nullary_bufs_sub .., binary_bufs_sub .., binary_bufs_sub .., binary_bufs_sub .., nullary_bufs_sub .., binary_bufs_sub .., nullary_bufs_sub .., binary_bufs_sub .., unary_bufs_sub .., unary_bufs_sub .., unary_bufs_sub .., binary_bufs_sub .., binary_bufs_sub .., binary_bufs_sub .., unary_bufs_sub .., reshape_bufs_sub .., unary_bufs_sub .., reshape_bufs_sub .., nullary_bufs_sub .., unary_bufs_sub .., binary_bufs_sub .., binary_bufs_sub .., nullary_bufs_sub .., unary_bufs_sub .., binary_bufs_sub .., unary_bufs_sub .., reshape_bufs_sub .., nullary_bufs_sub .., unary_bufs_sub .., binary_bufs_sub .., binary_bufs_sub .., nullary_bufs_sub .., unary_bufs_sub .., binary_bufs_sub .., unary_bufs_sub .., unary_bufs_sub .., binary_bufs_sub .., binary_bufs_sub .., binary_bufs_sub .., nullary_bufs_sub .., binary_bufs_sub .., nullary_bufs_sub .., binary_bufs_sub .., nullary_bufs_sub .., binary_bufs_sub .., nullary_bufs_sub .., binary_bufs_sub .., binary_bufs_sub .., reshape_bufs_sub ..⟩

/-! ## The result as a term of the arguments -/

/-- The symmetry term (%29): the pose's columns gathered at the four joint lists, the left and the right bones'
    squared lengths, and the mean over the six bones of their squared difference. Operations %c … %29, in order. -/
def sym (a0 : FVec F S3x21 .f32) : FVec F S_ .f32 :=
  have c : IVec S6 32 := fun i => lit0 (S6.rowMajor i)
  have c_0 : IVec S6 1 := constantI S6 1 0#1
  have c_1 : IVec S6 32 := fun i => lit1 (S6.rowMajor i)
  have c_2 : IVec S6 1 := constantI S6 1 0#1
  have c_3 : IVec S6 32 := fun i => lit2 (S6.rowMajor i)
  have c_4 : IVec S6 1 := constantI S6 1 0#1
  have c_5 : IVec S6 32 := fun i => lit3 (S6.rowMajor i)
  have c_6 : IVec S6 1 := constantI S6 1 0#1
  have c_7 : IVec S_ 32 := constantI S_ 32 21#32
  have v0 := (broadcastInDim S6 ![] bcast_S_S6 : (⟨S_, .i32⟩ : BufTy).Contents (Elt F) → (⟨S6, .i32⟩ : BufTy).Contents (Elt F)) c_7
  have v1 := (addi : (⟨S6, .i32⟩ : BufTy).Contents (Elt F) → (⟨S6, .i32⟩ : BufTy).Contents (Elt F) → (⟨S6, .i32⟩ : BufTy).Contents (Elt F)) c v0
  have v2 := (select : (⟨S6, .i1⟩ : BufTy).Contents (Elt F) → (⟨S6, .i32⟩ : BufTy).Contents (Elt F) → (⟨S6, .i32⟩ : BufTy).Contents (Elt F) → (⟨S6, .i32⟩ : BufTy).Contents (Elt F)) c_0 v1 c
  have v3 := (broadcastInDim S6x1 ![0] bcast_S6_S6x1_0 : (⟨S6, .i32⟩ : BufTy).Contents (Elt F) → (⟨S6x1, .i32⟩ : BufTy).Contents (Elt F)) v2
  have v4 := ((fun x i => Host.gather gather_S3x21_S6x1_S3x6_0_1_n_n_1_1_31 x i) : (⟨S3x21, .f32⟩ : BufTy).Contents (Elt F) → (⟨S6x1, .i32⟩ : BufTy).Contents (Elt F) → (⟨S3x6, .f32⟩ : BufTy).Contents (Elt F)) a0 v3
  have c_8 : IVec S_ 32 := constantI S_ 32 21#32
  have v5 := (broadcastInDim S6 ![] bcast_S_S6 : (⟨S_, .i32⟩ : BufTy).Contents (Elt F) → (⟨S6, .i32⟩ : BufTy).Contents (Elt F)) c_8
  have v6 := (addi : (⟨S6, .i32⟩ : BufTy).Contents (Elt F) → (⟨S6, .i32⟩ : BufTy).Contents (Elt F) → (⟨S6, .i32⟩ : BufTy).Contents (Elt F)) c_1 v5
  have v7 := (select : (⟨S6, .i1⟩ : BufTy).Contents (Elt F) → (⟨S6, .i32⟩ : BufTy).Contents (Elt F) → (⟨S6, .i32⟩ : BufTy).Contents (Elt F) → (⟨S6, .i32⟩ : BufTy).Contents (Elt F)) c_2 v6 c_1
  have v8 := (broadcastInDim S6x1 ![0] bcast_S6_S6x1_0 : (⟨S6, .i32⟩ : BufTy).Contents (Elt F) → (⟨S6x1, .i32⟩ : BufTy).Contents (Elt F)) v7
  have v9 := ((fun x i => Host.gather gather_S3x21_S6x1_S3x6_0_1_n_n_1_1_31 x i) : (⟨S3x21, .f32⟩ : BufTy).Contents (Elt F) → (⟨S6x1, .i32⟩ : BufTy).Contents (Elt F) → (⟨S3x6, .f32⟩ : BufTy).Contents (Elt F)) a0 v8
  have v10 := (subf : (⟨S3x6, .f32⟩ : BufTy).Contents (Elt F) → (⟨S3x6, .f32⟩ : BufTy).Contents (Elt F) → (⟨S3x6, .f32⟩ : BufTy).Contents (Elt F)) v4 v9
  have c_9 : IVec S_ 32 := constantI S_ 32 21#32
  have v11 := (broadcastInDim S6 ![] bcast_S_S6 : (⟨S_, .i32⟩ : BufTy).Contents (Elt F) → (⟨S6, .i32⟩ : BufTy).Contents (Elt F)) c_9
  have v12 := (addi : (⟨S6, .i32⟩ : BufTy).Contents (Elt F) → (⟨S6, .i32⟩ : BufTy).Contents (Elt F) → (⟨S6, .i32⟩ : BufTy).Contents (Elt F)) c_3 v11
  have v13 := (select : (⟨S6, .i1⟩ : BufTy).Contents (Elt F) → (⟨S6, .i32⟩ : BufTy).Contents (Elt F) → (⟨S6, .i32⟩ : BufTy).Contents (Elt F) → (⟨S6, .i32⟩ : BufTy).Contents (Elt F)) c_4 v12 c_3
  have v14 := (broadcastInDim S6x1 ![0] bcast_S6_S6x1_0 : (⟨S6, .i32⟩ : BufTy).Contents (Elt F) → (⟨S6x1, .i32⟩ : BufTy).Contents (Elt F)) v13
  have v15 := ((fun x i => Host.gather gather_S3x21_S6x1_S3x6_0_1_n_n_1_1_31 x i) : (⟨S3x21, .f32⟩ : BufTy).Contents (Elt F) → (⟨S6x1, .i32⟩ : BufTy).Contents (Elt F) → (⟨S3x6, .f32⟩ : BufTy).Contents (Elt F)) a0 v14
  have c_10 : IVec S_ 32 := constantI S_ 32 21#32
  have v16 := (broadcastInDim S6 ![] bcast_S_S6 : (⟨S_, .i32⟩ : BufTy).Contents (Elt F) → (⟨S6, .i32⟩ : BufTy).Contents (Elt F)) c_10
  have v17 := (addi : (⟨S6, .i32⟩ : BufTy).Contents (Elt F) → (⟨S6, .i32⟩ : BufTy).Contents (Elt F) → (⟨S6, .i32⟩ : BufTy).Contents (Elt F)) c_5 v16
  have v18 := (select : (⟨S6, .i1⟩ : BufTy).Contents (Elt F) → (⟨S6, .i32⟩ : BufTy).Contents (Elt F) → (⟨S6, .i32⟩ : BufTy).Contents (Elt F) → (⟨S6, .i32⟩ : BufTy).Contents (Elt F)) c_6 v17 c_5
  have v19 := (broadcastInDim S6x1 ![0] bcast_S6_S6x1_0 : (⟨S6, .i32⟩ : BufTy).Contents (Elt F) → (⟨S6x1, .i32⟩ : BufTy).Contents (Elt F)) v18
  have v20 := ((fun x i => Host.gather gather_S3x21_S6x1_S3x6_0_1_n_n_1_1_31 x i) : (⟨S3x21, .f32⟩ : BufTy).Contents (Elt F) → (⟨S6x1, .i32⟩ : BufTy).Contents (Elt F) → (⟨S3x6, .f32⟩ : BufTy).Contents (Elt F)) a0 v19
  have v21 := (subf : (⟨S3x6, .f32⟩ : BufTy).Contents (Elt F) → (⟨S3x6, .f32⟩ : BufTy).Contents (Elt F) → (⟨S3x6, .f32⟩ : BufTy).Contents (Elt F)) v15 v20
  have v22 := (mulf : (⟨S3x6, .f32⟩ : BufTy).Contents (Elt F) → (⟨S3x6, .f32⟩ : BufTy).Contents (Elt F) → (⟨S3x6, .f32⟩ : BufTy).Contents (Elt F)) v10 v10
  have cst : FVec F S_ .f32 := constant S_ .f32 0x00000000#32
  have v23 := ((fun x v => Host.reduceAdd x v reducesTo_S3x6_S6_d0 h_S_) : (⟨S3x6, .f32⟩ : BufTy).Contents (Elt F) → (⟨S_, .f32⟩ : BufTy).Contents (Elt F) → (⟨S6, .f32⟩ : BufTy).Contents (Elt F)) v22 cst
  have v24 := (mulf : (⟨S3x6, .f32⟩ : BufTy).Contents (Elt F) → (⟨S3x6, .f32⟩ : BufTy).Contents (Elt F) → (⟨S3x6, .f32⟩ : BufTy).Contents (Elt F)) v21 v21
  have cst_11 : FVec F S_ .f32 := constant S_ .f32 0x00000000#32
  have v25 := ((fun x v => Host.reduceAdd x v reducesTo_S3x6_S6_d0 h_S_) : (⟨S3x6, .f32⟩ : BufTy).Contents (Elt F) → (⟨S_, .f32⟩ : BufTy).Contents (Elt F) → (⟨S6, .f32⟩ : BufTy).Contents (Elt F)) v24 cst_11
  have v26 := (subf : (⟨S6, .f32⟩ : BufTy).Contents (Elt F) → (⟨S6, .f32⟩ : BufTy).Contents (Elt F) → (⟨S6, .f32⟩ : BufTy).Contents (Elt F)) v23 v25
  have v27 := (mulf : (⟨S6, .f32⟩ : BufTy).Contents (Elt F) → (⟨S6, .f32⟩ : BufTy).Contents (Elt F) → (⟨S6, .f32⟩ : BufTy).Contents (Elt F)) v26 v26
  have cst_12 : FVec F S_ .f32 := constant S_ .f32 0x00000000#32
  have v28 := ((fun x v => Host.reduceAdd x v reducesTo_S6_S_d0 h_S_) : (⟨S6, .f32⟩ : BufTy).Contents (Elt F) → (⟨S_, .f32⟩ : BufTy).Contents (Elt F) → (⟨S_, .f32⟩ : BufTy).Contents (Elt F)) v27 cst_12
  have cst_13 : FVec F S_ .f32 := constant S_ .f32 0x40C00000#32
  have v29 := (Host.divf : (⟨S_, .f32⟩ : BufTy).Contents (Elt F) → (⟨S_, .f32⟩ : BufTy).Contents (Elt F) → (⟨S_, .f32⟩ : BufTy).Contents (Elt F)) v28 cst_13
  v29

/-- Every joint relative to every drone (%30 … %33): the pose broadcast over the samples minus the drone's position
    broadcast over the joints. -/
def rel (a0 : FVec F S3x21 .f32) (a3 : FVec F S262144x3x1 .f32) : FVec F S262144x3x21 .f32 :=
  subf
    (broadcastInDim S262144x3x21 ![0, 1, 2] bcast_S1x3x21_S262144x3x21_0_1_2
      (broadcastInDim S1x3x21 ![1, 2] bcast_S3x21_S1x3x21_1_2 a0))
    (broadcastInDim S262144x3x21 ![0, 1, 2] bcast_S262144x3x1_S262144x3x21_0_1_2 a3)

/-- Each drone's rotation times the camera's (%34): the contraction over the drone rotation's last axis. -/
def rot (a2 : FVec F S262144x3x3 .f32) (a4 : FVec F S3x3 .f32) : FVec F S262144x3x3 .f32 :=
  Host.dotGeneral dot_S262144x3x3_S3x3_S262144x3x3_2_0_01_1_n_n none a2 a4

/-- Every joint in every sample's camera frame (%35): per sample, the contraction over the world axis. -/
def cam (a0 : FVec F S3x21 .f32) (a2 : FVec F S262144x3x3 .f32) (a3 : FVec F S262144x3x1 .f32) (a4 : FVec F S3x3 .f32) :
    FVec F S262144x3x21 .f32 :=
  Host.dotGeneral dot_S262144x3x3_S262144x3x21_S262144x3x21_1_1_2_2_0_0 none (rot a2 a4) (rel a0 a3)

/-- One camera axis of every joint of every sample (%36/%37, %38/%39, %45/%46): the slice at that axis, its unit
    axis dropped. -/
def camRow (off : Fin 3 → Nat) (h : S262144x3x21.Slices off S262144x1x21) (x : FVec F S262144x3x21 .f32) :
    FVec F S262144x21 .f32 :=
  shapeCast S262144x21 (extractStridedSlice S262144x1x21 off x h) shapeCasts_S262144x1x21_S262144x21

/-- A pinhole projection (%40 … %44, %47 … %51): 512 times a camera coordinate over the depth, plus the principal
    point's coordinate `pp`. -/
def proj (num den : FVec F S262144x21 .f32) (pp : BitVec 32) : FVec F S262144x21 .f32 :=
  addf
    (Host.divf (mulf (broadcastInDim S262144x21 ![] bcast_S_S262144x21 (constant S_ .f32 0x44000000#32)) num) den)
    (broadcastInDim S262144x21 ![] bcast_S_S262144x21 (constant S_ .f32 pp))

/-- The projected joints minus the observed ones (%52 … %55): the x and the y projections stacked along the image
    axis. -/
def err (a0 : FVec F S3x21 .f32) (a1 : FVec F S262144x2x21 .f32) (a2 : FVec F S262144x3x3 .f32)
    (a3 : FVec F S262144x3x1 .f32) (a4 : FVec F S3x3 .f32) : FVec F S262144x2x21 .f32 :=
  subf
    (concatenate S262144x2x21 1
      [⟨S262144x1x21, broadcastInDim S262144x1x21 ![0, 2] bcast_S262144x21_S262144x1x21_0_2
          (proj (camRow ![0, 0, 0] slices_S262144x3x21_S262144x1x21_0_0_0 (cam a0 a2 a3 a4))
                (camRow ![0, 2, 0] slices_S262144x3x21_S262144x1x21_0_2_0 (cam a0 a2 a3 a4)) 0x44000000#32)⟩,
       ⟨S262144x1x21, broadcastInDim S262144x1x21 ![0, 2] bcast_S262144x21_S262144x1x21_0_2
          (proj (camRow ![0, 1, 0] slices_S262144x3x21_S262144x1x21_0_1_0 (cam a0 a2 a3 a4))
                (camRow ![0, 2, 0] slices_S262144x3x21_S262144x1x21_0_2_0 (cam a0 a2 a3 a4)) 0x43900000#32)⟩]
      concatenates_S262144x1x21_S262144x1x21_S262144x2x21_d1)
    a1

/-- The squared reprojection error at every (sample, image axis, joint) (%56). -/
def sq (a0 : FVec F S3x21 .f32) (a1 : FVec F S262144x2x21 .f32) (a2 : FVec F S262144x3x3 .f32)
    (a3 : FVec F S262144x3x1 .f32) (a4 : FVec F S3x3 .f32) : FVec F S262144x2x21 .f32 :=
  mulf (err a0 a1 a2 a3 a4) (err a0 a1 a2 a3 a4)

/-- The result (%62): 1.0 * sym + 0.5 * ((0 + Σ sq) / 11010048), reshaped to [1]. -/
def out (a0 : FVec F S3x21 .f32) (a1 : FVec F S262144x2x21 .f32) (a2 : FVec F S262144x3x3 .f32)
    (a3 : FVec F S262144x3x1 .f32) (a4 : FVec F S3x3 .f32) : FVec F S1 .f32 :=
  shapeCast S1
    (addf (mulf (constant S_ .f32 0x3F800000#32) (sym a0))
      (mulf (constant S_ .f32 0x3F000000#32)
        (Host.divf
          (Host.reduceAdd (sq a0 a1 a2 a3 a4) (constant S_ .f32 0x00000000#32) reducesTo_S262144x2x21_S_d0_1_2 h_S_)
          (constant S_ .f32 0x4B280000#32))))
    shapeCasts_S_S1

set_option maxRecDepth 8192 in
set_option maxHeartbeats 35200000 in
/-- On every device, for any float values, from any memory with zero counters: every weakly fair execution of
    @main terminates with the result at `out` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v62) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v62).trans (by after_results_simp <;> rfl),
      (h c main_arg0).trans (by after_results_simp),
      (h c main_arg1).trans (by after_results_simp),
      (h c main_arg2).trans (by after_results_simp),
      (h c main_arg3).trans (by after_results_simp),
      (h c main_arg4).trans (by after_results_simp)⟩)
    (run_seq scopedRefs_eq scopedSems_eq defs main (fun _ => ops) main_eq (fun _ => ops_sub) m ρ)

end Cert.ReferenceIdeal.RefRun

end
-- ==== Proof.RefValue.lean ====
/-
  The reference's squared reprojection errors, read index by index at the extended reals, and their full sum.

  At the ideal values every operation is exact, so each named step of the reference reads, at coordinates
  (sample n, world axis l, camera axis i, joint j):
    rel[n,l,j]   = pose[l,j] - C[n,l,0]
    rot[n,l,i]   = Σ_k R[n,l,k] * K[k,i]
    cam[n,i,j]   = Σ_l rot[n,l,i] * rel[n,l,j]           (three terms, in the order l = 0, 1, 2)
    proj         = 512 * cam[n,·,j] / cam[n,2,j] + principal point
    err[n,0,j]   = proj_x - bone[n,0,j],   err[n,1,j] = proj_y - bone[n,1,j],   sq = err * err.
  These are the specification's `P`, `A`, `cam`, `px`, `py`, `sqX`, `sqY` sample by sample, with the same grouping of
  every sum, so no distributivity and no finiteness is used. The reduction over all three axes is the initial value
  plus the sum over every index; a rank-3 index set is the product of its coordinate ranges, so that sum is the
  triple sum over samples, the two image axes and the joints, which is the specification's `total`.
-/
import proofs.«166337_j45707041964540_1_alg».proof.Proof.RefRun
import proofs.«166337_j45707041964540_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic
open Idealize.ShloMosaic.ValueIdx

variable (a0 : FVec Ideal S3x21 .f32) (a1 : FVec Ideal S262144x2x21 .f32) (a2 : FVec Ideal S262144x3x3 .f32)
  (a3 : FVec Ideal S262144x3x1 .f32) (a4 : FVec Ideal S3x3 .f32)

/-- A joint relative to a drone, at coordinates. -/
theorem rel_apply (n : Fin 262144) (l : Fin 3) (j : Fin 21) :
    RefRun.rel a0 a3 (ix3 n l j) = a0 (ix2 l j) - a3 (ix3 n l 0) := by
  unfold RefRun.rel
  rw [subf_apply]
  congr 1
  · refine (broadcastInDim_apply _ _ _ (ix3 n l j) (ix3 (0 : Fin 1) l j) ?_).trans ?_
    · intro a
      match a with
      | ⟨0, _⟩ => rfl
      | ⟨1, _⟩ => rfl
      | ⟨2, _⟩ => rfl
    · refine broadcastInDim_apply _ _ _ (ix3 (0 : Fin 1) l j) (ix2 l j) ?_
      intro a
      match a with
      | ⟨0, _⟩ => rfl
      | ⟨1, _⟩ => rfl
  · refine broadcastInDim_apply _ _ _ (ix3 n l j) (ix3 n l (0 : Fin 1)) ?_
    intro a
    match a with
    | ⟨0, _⟩ => rfl
    | ⟨1, _⟩ => rfl
    | ⟨2, _⟩ => rfl

/-- The composed rotation at coordinates: the sum over the drone rotation's last axis. -/
theorem rot_apply (n : Fin 262144) (l i : Fin 3) :
    RefRun.rot a2 a4 (ix3 n l i) = ∑ k : Fin 3, a2 (ix3 n l k) * a4 (ix2 k i) := by
  unfold RefRun.rot
  show FloatOps.dotGeneral _ none _ a2 a4 (ix3 n l i) = _
  rw [Ideal.dotGeneral_apply,
    ← Equiv.sum_comp (contrEquiv1 dot_S262144x3x3_S3x3_S262144x3x3_2_0_01_1_n_n 3 rfl rfl).symm]
  refine Finset.sum_congr rfl fun k _ => ?_
  have c3 := contrEquiv1_symm_val dot_S262144x3x3_S3x3_S262144x3x3_2_0_01_1_n_n 3 rfl rfl k
  have l3 : dot_S262144x3x3_S3x3_S262144x3x3_2_0_01_1_n_n.lhsIdx (ix3 n l i)
      ((contrEquiv1 dot_S262144x3x3_S3x3_S262144x3x3_2_0_01_1_n_n 3 rfl rfl).symm k) = ix3 n l k := by
    funext ax; apply Fin.ext
    match ax with
    | ⟨0, _⟩ => simp [DotDims.lhsIdx, dot_S262144x3x3_S3x3_S262144x3x3_2_0_01_1_n_n]; rfl
    | ⟨1, _⟩ => simp [DotDims.lhsIdx, dot_S262144x3x3_S3x3_S262144x3x3_2_0_01_1_n_n]; rfl
    | ⟨2, _⟩ => simp [DotDims.lhsIdx, dot_S262144x3x3_S3x3_S262144x3x3_2_0_01_1_n_n]; exact c3
  have r3 : dot_S262144x3x3_S3x3_S262144x3x3_2_0_01_1_n_n.rhsIdx (ix3 n l i)
      ((contrEquiv1 dot_S262144x3x3_S3x3_S262144x3x3_2_0_01_1_n_n 3 rfl rfl).symm k) = ix2 k i := by
    funext ax; apply Fin.ext
    match ax with
    | ⟨0, _⟩ => simp [DotDims.rhsIdx, dot_S262144x3x3_S3x3_S262144x3x3_2_0_01_1_n_n]; exact c3
    | ⟨1, _⟩ => simp [DotDims.rhsIdx, dot_S262144x3x3_S3x3_S262144x3x3_2_0_01_1_n_n]; rfl
  rw [l3, r3]

/-- A joint in a sample's camera frame at coordinates: the sum over the world axis. -/
theorem cam_apply (n : Fin 262144) (i : Fin 3) (j : Fin 21) :
    RefRun.cam a0 a2 a3 a4 (ix3 n i j) = ∑ l : Fin 3, RefRun.rot a2 a4 (ix3 n l i) * RefRun.rel a0 a3 (ix3 n l j) := by
  unfold RefRun.cam
  show FloatOps.dotGeneral _ none _ (RefRun.rot a2 a4) (RefRun.rel a0 a3) (ix3 n i j) = _
  rw [Ideal.dotGeneral_apply,
    ← Equiv.sum_comp (contrEquiv1 dot_S262144x3x3_S262144x3x21_S262144x3x21_1_1_2_2_0_0 3 rfl rfl).symm]
  refine Finset.sum_congr rfl fun l _ => ?_
  have c3 := contrEquiv1_symm_val dot_S262144x3x3_S262144x3x21_S262144x3x21_1_1_2_2_0_0 3 rfl rfl l
  have l3 : dot_S262144x3x3_S262144x3x21_S262144x3x21_1_1_2_2_0_0.lhsIdx (ix3 n i j)
      ((contrEquiv1 dot_S262144x3x3_S262144x3x21_S262144x3x21_1_1_2_2_0_0 3 rfl rfl).symm l) = ix3 n l i := by
    funext ax; apply Fin.ext
    match ax with
    | ⟨0, _⟩ => simp [DotDims.lhsIdx, dot_S262144x3x3_S262144x3x21_S262144x3x21_1_1_2_2_0_0]; rfl
    | ⟨1, _⟩ => simp [DotDims.lhsIdx, dot_S262144x3x3_S262144x3x21_S262144x3x21_1_1_2_2_0_0]; exact c3
    | ⟨2, _⟩ => simp [DotDims.lhsIdx, dot_S262144x3x3_S262144x3x21_S262144x3x21_1_1_2_2_0_0]; rfl
  have r3 : dot_S262144x3x3_S262144x3x21_S262144x3x21_1_1_2_2_0_0.rhsIdx (ix3 n i j)
      ((contrEquiv1 dot_S262144x3x3_S262144x3x21_S262144x3x21_1_1_2_2_0_0 3 rfl rfl).symm l) = ix3 n l j := by
    funext ax; apply Fin.ext
    match ax with
    | ⟨0, _⟩ => simp [DotDims.rhsIdx, dot_S262144x3x3_S262144x3x21_S262144x3x21_1_1_2_2_0_0]; rfl
    | ⟨1, _⟩ => simp [DotDims.rhsIdx, dot_S262144x3x3_S262144x3x21_S262144x3x21_1_1_2_2_0_0]; exact c3
    | ⟨2, _⟩ => simp [DotDims.rhsIdx, dot_S262144x3x3_S262144x3x21_S262144x3x21_1_1_2_2_0_0]; rfl
  rw [l3, r3]

/-- One camera axis read at (sample, joint): the slice at axis `i` with its unit axis dropped. -/
theorem camRow_apply (i : Fin 3) (h : S262144x3x21.Slices ![0, i.val, 0] S262144x1x21)
    (x : FVec Ideal S262144x3x21 .f32) (n : Fin 262144) (j : Fin 21) :
    RefRun.camRow ![0, i.val, 0] h x (ix2 n j) = x (ix3 n i j) := by
  unfold RefRun.camRow
  refine (shapeCast_apply _ _ (ix2 n j) (ix3 n (0 : Fin 1) j) ?_).trans ?_
  · rw [Shape.rowMajor_val_three, Shape.rowMajor_val_two]
    show (n.val * 1 + 0) * 21 + j.val = n.val * 21 + j.val
    omega
  · refine extractStridedSlice_apply _ x h (ix3 n (0 : Fin 1) j) (ix3 n i j) ?_
    intro a
    match a with
    | ⟨0, _⟩ => show n.val = 0 + n.val; omega
    | ⟨1, _⟩ => show i.val = i.val + 0; rfl
    | ⟨2, _⟩ => show j.val = 0 + j.val; omega

/-- The three camera axes the program slices out, at their literal offsets. -/
theorem camRow_x (x : FVec Ideal S262144x3x21 .f32) (n : Fin 262144) (j : Fin 21) :
    RefRun.camRow ![0, 0, 0] slices_S262144x3x21_S262144x1x21_0_0_0 x (ix2 n j) = x (ix3 n 0 j) :=
  camRow_apply 0 _ x n j
theorem camRow_y (x : FVec Ideal S262144x3x21 .f32) (n : Fin 262144) (j : Fin 21) :
    RefRun.camRow ![0, 1, 0] slices_S262144x3x21_S262144x1x21_0_1_0 x (ix2 n j) = x (ix3 n 1 j) :=
  camRow_apply 1 _ x n j
theorem camRow_z (x : FVec Ideal S262144x3x21 .f32) (n : Fin 262144) (j : Fin 21) :
    RefRun.camRow ![0, 2, 0] slices_S262144x3x21_S262144x1x21_0_2_0 x (ix2 n j) = x (ix3 n 2 j) :=
  camRow_apply 2 _ x n j

/-- A pinhole projection at an index. -/
theorem proj_apply (num den : FVec Ideal S262144x21 .f32) (pp : BitVec 32) (q : S262144x21.Idx) :
    RefRun.proj num den pp q = Ideal.div (Reproj.f512 * num q) (den q) + Ideal.ofBits .f32 pp := rfl

/-- The error's x row: the x projection minus the observed x. -/
theorem err_x (n : Fin 262144) (j : Fin 21) :
    RefRun.err a0 a1 a2 a3 a4 (ix3 n 0 j)
      = RefRun.proj (RefRun.camRow ![0, 0, 0] slices_S262144x3x21_S262144x1x21_0_0_0 (RefRun.cam a0 a2 a3 a4))
          (RefRun.camRow ![0, 2, 0] slices_S262144x3x21_S262144x1x21_0_2_0 (RefRun.cam a0 a2 a3 a4)) 0x44000000#32 (ix2 n j)
        - a1 (ix3 n 0 j) := by
  unfold RefRun.err
  rw [subf_apply]
  congr 1

/-- The error's y row: the y projection minus the observed y. -/
theorem err_y (n : Fin 262144) (j : Fin 21) :
    RefRun.err a0 a1 a2 a3 a4 (ix3 n 1 j)
      = RefRun.proj (RefRun.camRow ![0, 1, 0] slices_S262144x3x21_S262144x1x21_0_1_0 (RefRun.cam a0 a2 a3 a4))
          (RefRun.camRow ![0, 2, 0] slices_S262144x3x21_S262144x1x21_0_2_0 (RefRun.cam a0 a2 a3 a4)) 0x43900000#32 (ix2 n j)
        - a1 (ix3 n 1 j) := by
  unfold RefRun.err
  rw [subf_apply]
  congr 1

/-! ## Against the specification -/

/-- The camera-frame coordinate is the specification's, sample by sample. -/
theorem cam_eq (n : Fin 262144) (i : Fin 3) (j : Fin 21) :
    RefRun.cam a0 a2 a3 a4 (ix3 n i j)
      = Reproj.cam (fun l j => a0 (ix2 l j)) (fun k i => a4 (ix2 k i)) (fun l k => a2 (ix3 n l k))
          (fun l => a3 (ix3 n l 0)) i j := by
  rw [cam_apply, Fin.sum_univ_three]
  simp only [rot_apply, rel_apply]
  rfl

/-- The squared error's x row is the specification's. -/
theorem sq_x (n : Fin 262144) (j : Fin 21) :
    RefRun.sq a0 a1 a2 a3 a4 (ix3 n 0 j)
      = Reproj.sqX (fun l j => a0 (ix2 l j)) (fun k i => a4 (ix2 k i)) (fun c j => a1 (ix3 n c j))
          (fun l k => a2 (ix3 n l k)) (fun l => a3 (ix3 n l 0)) j := by
  unfold RefRun.sq
  rw [mulf_apply, err_x, proj_apply]
  rw [camRow_x, camRow_z, cam_eq, cam_eq]
  rfl

/-- The squared error's y row is the specification's. -/
theorem sq_y (n : Fin 262144) (j : Fin 21) :
    RefRun.sq a0 a1 a2 a3 a4 (ix3 n 1 j)
      = Reproj.sqY (fun l j => a0 (ix2 l j)) (fun k i => a4 (ix2 k i)) (fun c j => a1 (ix3 n c j))
          (fun l k => a2 (ix3 n l k)) (fun l => a3 (ix3 n l 0)) j := by
  unfold RefRun.sq
  rw [mulf_apply, err_y, proj_apply]
  rw [camRow_y, camRow_z, cam_eq, cam_eq]
  rfl

/-! ## The whole sum -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The reference's full reduction of the squared errors is the initial value plus the specification's total. -/
theorem total_eq :
    Host.reduceAdd (F := Ideal) (RefRun.sq (F := Ideal) a0 a1 a2 a3 a4) (constant (F := Ideal) S_ .f32 0x00000000#32)
        reducesTo_S262144x2x21_S_d0_1_2 h_S_
      = fun _ => Ideal.ofBits .f32 0x00000000#32
          + Reproj.total (fun l j => a0 (ix2 l j)) (fun n c j => a1 (ix3 n c j)) (fun n l k => a2 (ix3 n l k))
              (fun n l => a3 (ix3 n l 0)) (fun k i => a4 (ix2 k i)) := by
  funext q
  show Ideal.hostReduceAdd reducesTo_S262144x2x21_S_d0_1_2 (RefRun.sq a0 a1 a2 a3 a4) (Ideal.ofBits .f32 0x00000000#32) q = _
  rw [Ideal.hostReduceAdd_total _ (fun b => b.elim0)]
  refine congrArg (Ideal.ofBits .f32 0x00000000#32 + ·) ?_
  rw [sum_idx3]
  unfold Reproj.total
  refine Finset.sum_congr rfl fun n _ => ?_
  rw [Fin.sum_univ_two]
  unfold Reproj.rowTot
  congr 1
  · exact Finset.sum_congr rfl fun j _ => sq_x a0 a1 a2 a3 a4 n j
  · exact Finset.sum_congr rfl fun j _ => sq_y a0 a1 a2 a3 a4 n j

end Cert.ReferenceIdeal.RefValue

end
-- ==== Proof.lean ====
/-
  The kernel against its reference, at the extended reals.

  Both programs return  1.0 · sym + 0.5 · ((0 + S) / 11010048)  as a one-element vector, where `sym` is a function of the
  3-D pose alone — the same host operations in both programs — and S is the sum, over the 262144 samples, the two image
  axes and the 21 joints, of the squared difference between a joint's pinhole projection and its observed position.
  The reference takes S as one sum over the whole [262144, 2, 21] array. The kernel walks the samples in 128 blocks
  of 2048: per block it sums the 42 lanes of each row, then the rows, and adds the block's total into a 1×1
  accumulator that starts at zero; the host then reads the accumulator. The projections themselves are the same
  expression on both sides, with the same float words and the same grouping (the composed rotation first, then the
  sum over the three world axes written first to last), so the only law that joins the two sides is that addition
  on the extended reals is commutative and associative: a sum may be regrouped by blocks, by rows and by lanes.
  Nothing needs the inputs finite, and the precondition is never opened.

  The three frames are the programs' runs with the results dropped; the idealization rewrote no operation.
-/
import proofs.«166337_j45707041964540_1_alg».proof.Defs
import proofs.«166337_j45707041964540_1_alg».proof.Proof.Gen.Kernel
import proofs.«166337_j45707041964540_1_alg».proof.Proof.Gen.Kernel.Skeleton
import proofs.«166337_j45707041964540_1_alg».proof.Proof.Gen.Kernel.Launch
import proofs.«166337_j45707041964540_1_alg».proof.Proof.Gen.Kernel.Points
import proofs.«166337_j45707041964540_1_alg».proof.Proof.Gen.Kernel.Frame
import proofs.«166337_j45707041964540_1_alg».proof.Proof.Gen.KernelIdeal
import proofs.«166337_j45707041964540_1_alg».proof.Proof.Gen.KernelIdeal.Skeleton
import proofs.«166337_j45707041964540_1_alg».proof.Proof.Gen.KernelIdeal.Launch
import proofs.«166337_j45707041964540_1_alg».proof.Proof.Gen.KernelIdeal.Points
import proofs.«166337_j45707041964540_1_alg».proof.Proof.Gen.KernelIdeal.Frame
import proofs.«166337_j45707041964540_1_alg».proof.Proof.Gen.ReferenceIdeal
import proofs.«166337_j45707041964540_1_alg».proof.Proof.Gen.Pre_finite_inputs
import proofs.«166337_j45707041964540_1_alg».proof.Proof.KValue
import proofs.«166337_j45707041964540_1_alg».proof.Proof.RefValue
import Idealize.ShloMosaic.Adequacy
import Idealize.ShloMosaic.Init

noncomputable section

namespace Cert.Proof

open Idealize.ShloMosaic Idealize.ShloMosaic.TcCoe Idealize.SL.Sem

/-- The symmetry term is one function of the pose in both programs: the same operations over the same constants. -/
theorem sym_eq (a0 : FVec Ideal Cert.KernelIdeal.S3x21 .f32) :
    Cert.KernelIdeal.KRun.sym (F := Ideal) a0 = Cert.ReferenceIdeal.RefRun.sym (F := Ideal) a0 := rfl

/-- The two results are one value: the kernel's accumulator is the zero word plus the total squared error, the
    reference's full sum is the same, and the host operations around them are the same. -/
theorem result_eq (m : (ℓ : Loc Cert.KernelIdeal.nD Cert.KernelIdeal.τ Cert.KernelIdeal.sig) → Buf (Elt Ideal) ℓ) (c : Dev Cert.KernelIdeal.nD) :
    Cert.KernelIdeal.KRun.out (F := Ideal)
        (Cert.KernelIdeal.KRun.sym (m ((c.tc : Thread Cert.KernelIdeal.nD Cert.KernelIdeal.τ).loc Cert.KernelIdeal.main_arg0)))
        (Cert.KernelIdeal.Body.result m c)
      = Cert.ReferenceIdeal.RefRun.out (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) := by
  unfold Cert.ReferenceIdeal.RefRun.out Cert.KernelIdeal.KRun.out
  rw [Cert.ReferenceIdeal.RefValue.total_eq, Cert.KernelIdeal.KValue.result_eq, sym_eq]
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- From memories agreeing on the five arguments both programs run, leave the arguments as they were, and end with
    equal results. -/
theorem algebraic : Cert.algebraic_KernelIdeal_ReferenceIdeal := by
  intro m ρ m' ρ' _ hagree
  refine ⟨fun c => Cert.KernelIdeal.KRun.out (F := Ideal)
      (Cert.KernelIdeal.KRun.sym (m ((c.tc : Thread Cert.KernelIdeal.nD Cert.KernelIdeal.τ).loc Cert.KernelIdeal.main_arg0)))
      (Cert.KernelIdeal.Body.result m c), Cert.KernelIdeal.KRun.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2]
  exact (result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
